-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel

variable [Facts]

def fn {F : FTy → Type} [FloatOps F] (main_arg0 : FVec F S262144x128 .f32) (main_arg1 : FVec F S262144x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  main_v8
-- ==== Kernel.lean ====
abbrev S262144x128 : Shape := ⟨2, ![262144, 128]⟩
abbrev S2x20x128 : Shape := ⟨3, ![2, 20, 128]⟩
abbrev S4096x128 : Shape := ⟨2, ![4096, 128]⟩
abbrev S1x20x128 : Shape := ⟨3, ![1, 20, 128]⟩
abbrev S20x128 : Shape := ⟨2, ![20, 128]⟩
abbrev S128 : Shape := ⟨1, ![128]⟩
abbrev S1x128 : Shape := ⟨2, ![1, 128]⟩
abbrev S1x1x128 : Shape := ⟨3, ![1, 1, 128]⟩
abbrev S_ : Shape := ⟨0, ![]⟩
abbrev S10x128 : Shape := ⟨2, ![10, 128]⟩
abbrev S10 : Shape := ⟨1, ![10]⟩

abbrev nBuf : Space → Nat
  | .hbm => 39
  | .vmem => 6
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S2x20x128, .f32⟩
  | .hbm, ⟨3, _⟩ => ⟨S_, .f32⟩
  | .hbm, ⟨4, _⟩ => ⟨S20x128, .f32⟩
  | .hbm, ⟨5, _⟩ => ⟨S10x128, .f32⟩
  | .hbm, ⟨6, _⟩ => ⟨S_, .f32⟩
  | .hbm, ⟨7, _⟩ => ⟨S10, .f32⟩
  | .hbm, ⟨8, _⟩ => ⟨S10x128, .f32⟩
  | .hbm, ⟨9, _⟩ => ⟨S_, .f32⟩
  | .hbm, ⟨10, _⟩ => ⟨S10, .f32⟩
  | .hbm, ⟨11, _⟩ => ⟨S_, .f32⟩
  | .hbm, ⟨12, _⟩ => ⟨S10, .f32⟩
  | .hbm, ⟨13, _⟩ => ⟨S10, .i1⟩
  | .hbm, ⟨14, _⟩ => ⟨S10, .i32⟩
  | .hbm, ⟨15, _⟩ => ⟨S_, .i32⟩
  | .hbm, ⟨16, _⟩ => ⟨S_, .i32⟩
  | .hbm, ⟨17, _⟩ => ⟨S_, .f32⟩
  | .hbm, ⟨18, _⟩ => ⟨S_, .f32⟩
  | .hbm, ⟨19, _⟩ => ⟨S10, .f32⟩
  | .hbm, ⟨20, _⟩ => ⟨S10, .i1⟩
  | .hbm, ⟨21, _⟩ => ⟨S_, .f32⟩
  | .hbm, ⟨22, _⟩ => ⟨S10, .f32⟩
  | .hbm, ⟨23, _⟩ => ⟨S10, .f32⟩
  | .hbm, ⟨24, _⟩ => ⟨S_, .f32⟩
  | .hbm, ⟨25, _⟩ => ⟨S10, .f32⟩
  | .hbm, ⟨26, _⟩ => ⟨S10, .f32⟩
  | .hbm, ⟨27, _⟩ => ⟨S_, .f32⟩
  | .hbm, ⟨28, _⟩ => ⟨S_, .f32⟩
  | .hbm, ⟨29, _⟩ => ⟨S10, .f32⟩
  | .hbm, ⟨30, _⟩ => ⟨S10, .f32⟩
  | .hbm, ⟨31, _⟩ => ⟨S10, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x20x128, .f32⟩
  | .local _ .vmem, ⟨5, _⟩ => ⟨S1x20x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_cst_6 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_cst_8 : Ref sig .tc := ⟨.hbm, 34, rfl⟩
abbrev main_v20 : Ref sig .tc := ⟨.hbm, 35, rfl⟩
abbrev main_cst_9 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x20x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x20x128_S1x20x128_0_0_0 : ∀ a, (![0, 0, 0] : Fin 3 → Nat) a + S1x20x128.size a ≤ S1x20x128.size a
  h_S1x20x128 : 0 < S1x20x128.numel
  shapeCasts_S1x20x128_S20x128 : S1x20x128.ShapeCasts S20x128
  shapeCasts_S20x128_S1x20x128 : S20x128.ShapeCasts S1x20x128
  inb_S4096x128_S4096x128_0_0 : ∀ a, (![0, 0] : Fin 2 → Nat) a + S4096x128.size a ≤ S4096x128.size a
  h_S4096x128 : 0 < S4096x128.numel
  natLt_1_32 : 1 < 32
  reduces_S4096x128_S128 : S4096x128.Reduces [0] S128
  shapeCasts_S128_S1x128 : S128.ShapeCasts S1x128
  inb_S1x20x128_S1x1x128_0_0_0 : ∀ a, (![0, 0, 0] : Fin 3 → Nat) a + S1x1x128.size a ≤ S1x20x128.size a
  h_S1x1x128 : 0 < S1x1x128.numel
  shapeCasts_S1x1x128_S1x128 : S1x1x128.ShapeCasts S1x128
  shapeCasts_S1x128_S1x1x128 : S1x128.ShapeCasts S1x1x128
  inb_S1x20x128_S1x1x128_0_10_0 : ∀ a, (![0, 10, 0] : Fin 3 → Nat) a + S1x1x128.size a ≤ S1x20x128.size a
  inb_S1x20x128_S1x1x128_0_1_0 : ∀ a, (![0, 1, 0] : Fin 3 → Nat) a + S1x1x128.size a ≤ S1x20x128.size a
  inb_S1x20x128_S1x1x128_0_11_0 : ∀ a, (![0, 11, 0] : Fin 3 → Nat) a + S1x1x128.size a ≤ S1x20x128.size a
  inb_S1x20x128_S1x1x128_0_2_0 : ∀ a, (![0, 2, 0] : Fin 3 → Nat) a + S1x1x128.size a ≤ S1x20x128.size a
  inb_S1x20x128_S1x1x128_0_12_0 : ∀ a, (![0, 12, 0] : Fin 3 → Nat) a + S1x1x128.size a ≤ S1x20x128.size a
  inb_S1x20x128_S1x1x128_0_3_0 : ∀ a, (![0, 3, 0] : Fin 3 → Nat) a + S1x1x128.size a ≤ S1x20x128.size a
  inb_S1x20x128_S1x1x128_0_13_0 : ∀ a, (![0, 13, 0] : Fin 3 → Nat) a + S1x1x128.size a ≤ S1x20x128.size a
  inb_S1x20x128_S1x1x128_0_4_0 : ∀ a, (![0, 4, 0] : Fin 3 → Nat) a + S1x1x128.size a ≤ S1x20x128.size a
  inb_S1x20x128_S1x1x128_0_14_0 : ∀ a, (![0, 14, 0] : Fin 3 → Nat) a + S1x1x128.size a ≤ S1x20x128.size a
  inb_S1x20x128_S1x1x128_0_5_0 : ∀ a, (![0, 5, 0] : Fin 3 → Nat) a + S1x1x128.size a ≤ S1x20x128.size a
  inb_S1x20x128_S1x1x128_0_15_0 : ∀ a, (![0, 15, 0] : Fin 3 → Nat) a + S1x1x128.size a ≤ S1x20x128.size a
  inb_S1x20x128_S1x1x128_0_6_0 : ∀ a, (![0, 6, 0] : Fin 3 → Nat) a + S1x1x128.size a ≤ S1x20x128.size a
  inb_S1x20x128_S1x1x128_0_16_0 : ∀ a, (![0, 16, 0] : Fin 3 → Nat) a + S1x1x128.size a ≤ S1x20x128.size a
  inb_S1x20x128_S1x1x128_0_7_0 : ∀ a, (![0, 7, 0] : Fin 3 → Nat) a + S1x1x128.size a ≤ S1x20x128.size a
  inb_S1x20x128_S1x1x128_0_17_0 : ∀ a, (![0, 17, 0] : Fin 3 → Nat) a + S1x1x128.size a ≤ S1x20x128.size a
  inb_S1x20x128_S1x1x128_0_8_0 : ∀ a, (![0, 8, 0] : Fin 3 → Nat) a + S1x1x128.size a ≤ S1x20x128.size a
  inb_S1x20x128_S1x1x128_0_18_0 : ∀ a, (![0, 18, 0] : Fin 3 → Nat) a + S1x1x128.size a ≤ S1x20x128.size a
  inb_S1x20x128_S1x1x128_0_9_0 : ∀ a, (![0, 9, 0] : Fin 3 → Nat) a + S1x1x128.size a ≤ S1x20x128.size a
  inb_S1x20x128_S1x1x128_0_19_0 : ∀ a, (![0, 19, 0] : Fin 3 → Nat) a + S1x1x128.size a ≤ S1x20x128.size a
  reducesTo_S2x20x128_S20x128_d0 : S2x20x128.ReducesTo [0] S20x128
  h_S_ : 0 < S_.numel
  slices_S20x128_S10x128_0_0 : S20x128.Slices ![0, 0] S10x128
  reducesTo_S10x128_S10_d1 : S10x128.ReducesTo [1] S10
  slices_S20x128_S10x128_10_0 : S20x128.Slices ![10, 0] S10x128
  bcast_S_S10 : S_.BroadcastsInDim S10 (![] : Fin 0 → Fin S10.rank)
  reducesTo_S10_S_d0 : S10.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x20x128.size a ≤ S2x20x128.size a
  hwx0_2 : ∀ i : grid0.Coords, EltTy.bits .f32 = 32 ∨ (Rect.block (s := S2x20x128) S1x20x128.size (cc0_transform_2 i) (hinb0_2 i)).WholeWords (EltTy.packing .f32)

variable [Facts₀]

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x20x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x128 : Shape := ⟨2, ![262144, 128]⟩
abbrev S_ : Shape := ⟨0, ![]⟩
abbrev S10 : Shape := ⟨1, ![10]⟩
abbrev S33554432 : Shape := ⟨1, ![33554432]⟩
abbrev S33554432x1 : Shape := ⟨2, ![33554432, 1]⟩
abbrev S262144x128x1 : Shape := ⟨3, ![262144, 128, 1]⟩

abbrev nBuf : Space → Nat
  | .hbm => 79
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144x128, .f32⟩
  | .hbm, ⟨4, _⟩ => ⟨S_, .f32⟩
  | .hbm, ⟨5, _⟩ => ⟨S262144x128, .f32⟩
  | .hbm, ⟨6, _⟩ => ⟨S262144x128, .f32⟩
  | .hbm, ⟨7, _⟩ => ⟨S262144x128, .f32⟩
  | .hbm, ⟨8, _⟩ => ⟨S262144x128, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S262144x128, .i32⟩
  | .hbm, ⟨13, _⟩ => ⟨S262144x128, .i32⟩
  | .hbm, ⟨14, _⟩ => ⟨S_, .i32⟩
  | .hbm, ⟨15, _⟩ => ⟨S262144x128, .i32⟩
  | .hbm, ⟨16, _⟩ => ⟨S262144x128, .i32⟩
  | .hbm, ⟨17, _⟩ => ⟨S_, .f32⟩
  | .hbm, ⟨18, _⟩ => ⟨S10, .f32⟩
  | .hbm, ⟨19, _⟩ => ⟨S33554432, .i32⟩
  | .hbm, ⟨20, _⟩ => ⟨S_, .i32⟩
  | .hbm, ⟨21, _⟩ => ⟨S33554432, .i32⟩
  | .hbm, ⟨22, _⟩ => ⟨S33554432, .i1⟩
  | .hbm, ⟨23, _⟩ => ⟨S_, .i32⟩
  | .hbm, ⟨24, _⟩ => ⟨S33554432, .i32⟩
  | .hbm, ⟨25, _⟩ => ⟨S33554432, .i32⟩
  | .hbm, ⟨26, _⟩ => ⟨S33554432, .i32⟩
  | .hbm, ⟨27, _⟩ => ⟨S33554432x1, .i32⟩
  | .hbm, ⟨28, _⟩ => ⟨S_, .f32⟩
  | .hbm, ⟨29, _⟩ => ⟨S33554432, .f32⟩
  | .hbm, ⟨30, _⟩ => ⟨S10, .f32⟩
  | .hbm, ⟨31, _⟩ => ⟨S_, .f32⟩
  | .hbm, ⟨32, _⟩ => ⟨S10, .f32⟩
  | .hbm, ⟨33, _⟩ => ⟨S10, .i1⟩
  | .hbm, ⟨34, _⟩ => ⟨S10, .i32⟩
  | .hbm, ⟨35, _⟩ => ⟨S_, .i32⟩
  | .hbm, ⟨36, _⟩ => ⟨S_, .i32⟩
  | .hbm, ⟨37, _⟩ => ⟨S_, .f32⟩
  | .hbm, ⟨38, _⟩ => ⟨S_, .f32⟩
  | .hbm, ⟨39, _⟩ => ⟨S10, .f32⟩
  | .hbm, ⟨40, _⟩ => ⟨S10, .i1⟩
  | .hbm, ⟨41, _⟩ => ⟨S_, .f32⟩
  | .hbm, ⟨42, _⟩ => ⟨S10, .f32⟩
  | .hbm, ⟨43, _⟩ => ⟨S10, .f32⟩
  | .hbm, ⟨44, _⟩ => ⟨S_, .f32⟩
  | .hbm, ⟨45, _⟩ => ⟨S10, .f32⟩
  | .hbm, ⟨46, _⟩ => ⟨S10, .f32⟩
  | .hbm, ⟨47, _⟩ => ⟨S_, .f32⟩
  | .hbm, ⟨48, _⟩ => ⟨S_, .f32⟩
  | .hbm, ⟨49, _⟩ => ⟨S10, .f32⟩
  | .hbm, ⟨50, _⟩ => ⟨S10, .f32⟩
  | .hbm, ⟨51, _⟩ => ⟨S_, .i32⟩
  | .hbm, ⟨52, _⟩ => ⟨S262144x128, .i32⟩
  | .hbm, ⟨53, _⟩ => ⟨S262144x128, .i1⟩
  | .hbm, ⟨54, _⟩ => ⟨S_, .i32⟩
  | .hbm, ⟨55, _⟩ => ⟨S262144x128, .i32⟩
  | .hbm, ⟨56, _⟩ => ⟨S262144x128, .i32⟩
  | .hbm, ⟨57, _⟩ => ⟨S262144x128, .i32⟩
  | .hbm, ⟨58, _⟩ => ⟨S262144x128x1, .i32⟩
  | .hbm, ⟨59, _⟩ => ⟨S262144x128, .f32⟩
  | .hbm, ⟨60, _⟩ => ⟨S_, .f32⟩
  | .hbm, ⟨61, _⟩ => ⟨S_, .f32⟩
  | .hbm, ⟨62, _⟩ => ⟨S262144x128, .f32⟩
  | .hbm, ⟨63, _⟩ => ⟨S262144x128, .f32⟩
  | .hbm, ⟨64, _⟩ => ⟨S262144x128, .f32⟩
  | .hbm, ⟨65, _⟩ => ⟨S262144x128, .f32⟩
  | .hbm, ⟨66, _⟩ => ⟨S_, .f32⟩
  | .hbm, ⟨67, _⟩ => ⟨S262144x128, .f32⟩
  | .hbm, ⟨68, _⟩ => ⟨S262144x128, .f32⟩
  | .hbm, ⟨69, _⟩ => ⟨S262144x128, .f32⟩
  | .hbm, ⟨70, _⟩ => ⟨S262144x128, .f32⟩
  | .hbm, ⟨71, _⟩ => ⟨S262144x128, .f32⟩
  | .hbm, ⟨72, _⟩ => ⟨S262144x128, .f32⟩
  | .hbm, ⟨73, _⟩ => ⟨S262144x128, .f32⟩
  | .hbm, ⟨74, _⟩ => ⟨S262144x128, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_cst_10 : Ref sig .tc := ⟨.hbm, 47, rfl⟩
abbrev main_call1_v0 : Ref sig .tc := ⟨.hbm, 48, rfl⟩
abbrev main_call1_v1 : Ref sig .tc := ⟨.hbm, 49, rfl⟩
abbrev main_v28 : Ref sig .tc := ⟨.hbm, 50, rfl⟩
abbrev main_c_11 : Ref sig .tc := ⟨.hbm, 51, rfl⟩
abbrev main_v29 : Ref sig .tc := ⟨.hbm, 52, rfl⟩
abbrev main_v30 : Ref sig .tc := ⟨.hbm, 53, rfl⟩
abbrev main_c_12 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_13 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_14 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_15 : Ref sig .tc := ⟨.hbm, 75, rfl⟩
abbrev main_v49 : Ref sig .tc := ⟨.hbm, 76, rfl⟩
abbrev main_cst_16 : Ref sig .tc := ⟨.hbm, 77, rfl⟩
abbrev main_v50 : Ref sig .tc := ⟨.hbm, 78, rfl⟩

abbrev nD : Nat := 1
abbrev τ : Topo := Topo.v7x

variable {F : FTy → Type} [FloatOps F]

class Facts₀ : Prop where
  bcast_S_S262144x128 : S_.BroadcastsInDim S262144x128 (![] : Fin 0 → Fin S262144x128.rank)
  bcast_S_S10 : S_.BroadcastsInDim S10 (![] : Fin 0 → Fin S10.rank)
  shapeCasts_S262144x128_S33554432 : S262144x128.ShapeCasts S33554432
  bcast_S_S33554432 : S_.BroadcastsInDim S33554432 (![] : Fin 0 → Fin S33554432.rank)
  bcast_S33554432_S33554432x1_0 : S33554432.BroadcastsInDim S33554432x1 (![0] : Fin 1 → Fin S33554432x1.rank)
  natLt_1_32 : 1 < 32
  reducesTo_S10_S_d0 : S10.ReducesTo [0] S_
  h_S_ : 0 < S_.numel
  bcast_S262144x128_S262144x128x1_0_1 : S262144x128.BroadcastsInDim S262144x128x1 (![0, 1] : Fin 2 → Fin S262144x128x1.rank)
  reducesTo_S262144x128_S_d0_1 : S262144x128.ReducesTo [0, 1] S_
  scatter_S10_S33554432x1_S33554432_n_0_0_1_wf : ScatterDims.WF S10 S33554432x1 S33554432 [] [0] [0] 1
  gather_S10_S262144x128x1_S262144x128_n_0_n_n_0_2_1_wf : GatherDims.WF S10 S262144x128x1 S262144x128 [] [0] [] [0] [] 2 ![1]

variable [Facts₀]

def scatter_S10_S33554432x1_S33554432_n_0_0_1 : ScatterDims S10 S33554432x1 S33554432 where
  updateWindowDims := []
  insertedWindowDims := [0]
  scatterDimsToOperandDims := [0]
  indexVectorDim := 1
  wf := scatter_S10_S33554432x1_S33554432_n_0_0_1_wf
def gather_S10_S262144x128x1_S262144x128_n_0_n_n_0_2_1 : GatherDims S10 S262144x128x1 S262144x128 where
  offsetDims := []
  collapsedSliceDims := [0]
  operandBatchingDims := []
  startIndicesBatchingDims := []
  startIndexMap := [0]
  indexVectorDim := 2
  sliceSizes := ![1]
  wf := gather_S10_S262144x128x1_S262144x128_n_0_n_n_0_2_1_wf

class Facts : Prop extends Facts₀ where

variable [Facts]
-- ==== Proof.Spec.lean ====
/-
  The loss, as one function of the two argument arrays.

  For an element with probability x and target t the bin word is clip(floor(|x - t| * 10), 0, 9) and its cross
  entropy is -(t * log x + (1 - t) * log(1 + (-x))). Bin b has a count (the number of elements whose word is b)
  and a sum (of their cross entropies); a bin's weight is tot / max(count, 1) when the count is positive and 0
  otherwise, and n is the number of bins with a positive count.

  Two closed forms are stated. The first adds, over the ten bins, weight times sum, and divides by max(n, 1) * tot.
  The second adds, over all elements, (the weight of the element's bin divided by max(n, 1)) times its cross
  entropy, and divides by tot. Both are written over the same counts, so the functions of the counts (the weight,
  and n) never have to be opened to compare them.
-/
import Idealize.ShloMosaic.PureOps.Ideal
import Idealize.ShloMosaic.PureOps.Ideal.Laws
import Idealize.ShloMosaic.Lib.ValueIdx

noncomputable section

open scoped BigOperators

namespace Cert.Ghm

open Idealize.ShloMosaic Idealize.ShloMosaic.ValueIdx

/-- The shape of the two argument arrays, of the ten per-bin numbers, and of one number. -/
abbrev SArr : Shape := ⟨2, ![262144, 128]⟩
abbrev SBins : Shape := ⟨1, ![10]⟩
abbrev SOne : Shape := ⟨0, ![]⟩

/-- The literals both programs use: 0, 1, 10 and tot = 2^25, the number of elements. -/
def zeroL : Ideal .f32 := FloatOps.ofBits (F := Ideal) .f32 0x00000000#32
def oneL : Ideal .f32 := FloatOps.ofBits (F := Ideal) .f32 0x3F800000#32
def tenL : Ideal .f32 := FloatOps.ofBits (F := Ideal) .f32 0x41200000#32
def totL : Ideal .f32 := FloatOps.ofBits (F := Ideal) .f32 0x4C000000#32

/-- The bin word of one element: floor(|x - t| * 10) as a signed word, clipped to [0, 9]. -/
def binW (x t : Ideal .f32) : BitVec 32 :=
  IntOp.minsi 9#32 (IntOp.maxsi 0#32 (FloatOps.fptosi (F := Ideal) (φ := .f32) 32
    (FloatOps.floor (FloatOps.mulf (FloatOps.absf (FloatOps.subf x t)) tenL))))

/-- The cross entropy of one element. -/
def bce (x t : Ideal .f32) : Ideal .f32 :=
  FloatOps.negf (FloatOps.addf (FloatOps.mulf t (FloatOps.log x))
    (FloatOps.mulf (FloatOps.subf oneL t) (FloatOps.log1p (FloatOps.negf x))))

/-- What one element adds to bin b's count: 1 if its word is b, else 0 (the comparison bit read as a number). -/
def cntTerm (b : BitVec 32) (x t : Ideal .f32) : Ideal .f32 :=
  FloatOps.sitofp (F := Ideal) .f32 ((IntOp.cmpi .eq (binW x t) b).setWidth 32)

/-- What one element adds to bin b's sum: its cross entropy if its word is b, else 0. -/
def bceTerm (b : BitVec 32) (x t : Ideal .f32) : Ideal .f32 :=
  Scalar.select (IntOp.cmpi .eq (binW x t) b) (bce x t) zeroL

/-- Bin b's count and sum over the whole arrays, rows outside, lanes inside. -/
def cnt (X T : FVec Ideal SArr .f32) (b : Fin 10) : Ideal .f32 :=
  ∑ r : Fin 262144, ∑ l : Fin 128, cntTerm (BitVec.ofNat 32 b.val) (X (ix2 r l)) (T (ix2 r l))
def sm (X T : FVec Ideal SArr .f32) (b : Fin 10) : Ideal .f32 :=
  ∑ r : Fin 262144, ∑ l : Fin 128, bceTerm (BitVec.ofNat 32 b.val) (X (ix2 r l)) (T (ix2 r l))

/-- The ten counts as a vector. -/
def cntVec (X T : FVec Ideal SArr .f32) : FVec Ideal SBins .f32 := fun j => cnt X T (j 0 : Fin 10)

/-- A bin's weight from its count: tot / max(count, 1) if the count is positive, else 0. -/
def wS (c : Ideal .f32) : Ideal .f32 :=
  Scalar.select (FloatOps.cmpf .ogt c zeroL) (FloatOps.hostDivf totL (FloatOps.maximumf c oneL)) zeroL

/-- n, the number of bins with a positive count, as the host computes it from the vector of counts (compare with a
    vector of zeros, widen the bits to words, add the words from 0, read the word as a number), and max(n, 1). The
    shape facts are arguments: each program supplies its own, and a proposition has one proof. -/
def nOf (cv : FVec Ideal SBins .f32) (hb : SOne.BroadcastsInDim SBins (![] : Fin 0 → Fin SBins.rank))
    (hr : SBins.ReducesTo [0] SOne) (h0 : 0 < SOne.numel) (hlt : 1 < 32) : Ideal .f32 :=
  (sitofp (F := Ideal) .f32 (Host.reduce IntOp.addi
    (extui 32 (cmpf .ogt cv (broadcastInDim SBins ![] hb (constant (F := Ideal) SOne .f32 0x00000000#32))) hlt)
    (constantI SOne 32 0#32) hr h0)) ix0
def nMax (cv : FVec Ideal SBins .f32) (hb : SOne.BroadcastsInDim SBins (![] : Fin 0 → Fin SBins.rank))
    (hr : SBins.ReducesTo [0] SOne) (h0 : 0 < SOne.numel) (hlt : 1 < 32) : Ideal .f32 :=
  FloatOps.maximumf (nOf cv hb hr h0 hlt) oneL

/-- The bin of one element as a member of Fin 10, given that its word is below 10. -/
def binIdx (x t : Ideal .f32) (h : (binW x t).toNat < 10) : Fin 10 := ⟨(binW x t).toNat, h⟩

section
variable (hb : SOne.BroadcastsInDim SBins (![] : Fin 0 → Fin SBins.rank))
  (hr : SBins.ReducesTo [0] SOne) (h0 : 0 < SOne.numel) (hlt : 1 < 32)

/-- The loss with the elements grouped by bin first: (0 + the sum over the bins of weight times the bin's sum)
    divided by max(n, 1) * tot. -/
def lossByBin (X T : FVec Ideal SArr .f32) : Ideal .f32 :=
  FloatOps.hostDivf (zeroL + ∑ b : Fin 10, FloatOps.mulf (wS (cnt X T b)) (sm X T b))
    (FloatOps.mulf (nMax (cntVec X T) hb hr h0 hlt) totL)

/-- The loss element by element: (0 + the sum over the elements of (the weight of the element's bin divided by
    max(n, 1)) times the element's cross entropy) divided by tot. -/
def lossByElement (hlt10 : ∀ x t : Ideal .f32, (binW x t).toNat < 10) (X T : FVec Ideal SArr .f32) : Ideal .f32 :=
  FloatOps.hostDivf (zeroL + ∑ r : Fin 262144, ∑ l : Fin 128,
      FloatOps.mulf (FloatOps.hostDivf (wS (cnt X T (binIdx (X (ix2 r l)) (T (ix2 r l)) (hlt10 _ _))))
        (nMax (cntVec X T) hb hr h0 hlt)) (bce (X (ix2 r l)) (T (ix2 r l))))
    totL
end

end Cert.Ghm

end
-- ==== Proof.LibScaleSum.lean ====
/-
  Scaling a finite sum of extended reals by a finite non-negative number.

  On the extended reals multiplication does not distribute over addition in general: x · (⊤ + ⊥) and x · ⊤ + x · ⊥
  differ for a negative x, and ⊤ · (1 + (-1)) is 0 while ⊤ · 1 + ⊤ · (-1) is ⊥. It does when the factor c is
  non-negative and finite: then y ↦ c · y is monotone, sends each infinity to itself or (for c = 0) everything to 0,
  and so respects the convention ⊤ + ⊥ = ⊥. Hence such a factor moves inside any finite sum, whatever the summands.
-/
import Mathlib.Data.EReal.Operations
import Mathlib.Algebra.BigOperators.Group.Finset.Basic

open scoped BigOperators

namespace EReal

/-- A finite non-negative factor moves inside a finite sum of extended reals. -/
theorem mul_sum_of_nonneg_of_ne_top {ι : Type*} (s : Finset ι) {c : EReal} (h0 : 0 ≤ c) (ht : c ≠ ⊤)
    (f : ι → EReal) : c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The same with the factor on the right. -/
theorem sum_mul_of_nonneg_of_ne_top {ι : Type*} (s : Finset ι) {c : EReal} (h0 : 0 ≤ c) (ht : c ≠ ⊤)
    (f : ι → EReal) : (∑ i ∈ s, f i) * c = ∑ i ∈ s, f i * c := by
  rw [EReal.mul_comm, mul_sum_of_nonneg_of_ne_top s h0 ht]
  exact Finset.sum_congr rfl fun i _ => EReal.mul_comm _ _

end EReal
-- ==== Proof.BinLaw.lean ====
/-
  The bin word and the law that lets the loss be summed bin by bin or element by element.

  The bin word of an element is a signed word clipped below by 0 and above by 9, so read as a number it lies in
  [0, 9], and as a natural number it is below 10. The comparison bit "the word is b", read as a number, is 1 or 0,
  and selecting on it gives the element's cross entropy or 0. The literals 0x00000000, 0x3F800000 and 0x4C000000
  are the numbers 0, 1 and 2^25 = 33554432.

  The two closed forms of the loss are equal. Write e for an element, v e for its cross entropy, β e for its bin,
  w b for the weight of bin b, N for max(n, 1) and tot for 2^25. The first form is
  (0 + Σ_b w b · Σ_e [β e = b] v e) / (N · tot), the second is (0 + Σ_e (w (β e) / N) · v e) / tot. Three facts
  are used. A weight is finite and non-negative whatever the count is, an infinite count included: it is 0, or
  tot · y⁻¹ with y = max(count, 1) ≥ 1, and on the extended reals ⊤⁻¹ = 0. N is a real number that is at least
  1, since n is a word read as a number. Dividing by a non-zero real is multiplying by its reciprocal. So every
  factor that has to cross a sum (w b, 1/N, and their product) is finite and non-negative, and such a factor
  does move across a finite sum of extended reals, although multiplication does not distribute over addition
  there in general. With that,
    Σ_e (w (β e) · N⁻¹) · v e = Σ_e Σ_b [β e = b] (w b · N⁻¹) · v e = Σ_b (w b · N⁻¹) · Σ_e [β e = b] v e
                              = (Σ_b w b · Σ_e [β e = b] v e) · N⁻¹,
  by exchanging the two finite sums (addition of extended reals is commutative and associative), and the
  reciprocal of N · tot is N⁻¹ · tot⁻¹. The regrouping is proved over an arbitrary finite index type and used
  at the type of pairs (row, lane); nothing of the size of the arrays is ever evaluated.
-/
import proofs.«117712_j46686294508029_2_alg».proof.Proof.Spec
import proofs.«117712_j46686294508029_2_alg».proof.Proof.LibScaleSum

noncomputable section

open scoped BigOperators

namespace Cert.Ghm

open Idealize.ShloMosaic Idealize.ShloMosaic.ValueIdx

/-- The bin word read as a signed number lies between 0 and 9. -/
theorem binW_toInt (x t : Ideal .f32) : 0 ≤ (binW x t).toInt ∧ (binW x t).toInt ≤ 9 := by
  unfold binW IntOp.minsi IntOp.maxsi
  have h9 : (9#32).toInt = 9 := by decide
  have h0 : (0#32).toInt = 0 := by decide
  simp only [BitVec.slt, decide_eq_true_eq]
  split_ifs <;> omega

/-- The bin word read as a natural number is below 10. -/
theorem binW_lt (x t : Ideal .f32) : (binW x t).toNat < 10 := by
  have h := binW_toInt x t
  rw [BitVec.toInt_eq_toNat_cond] at h
  split_ifs at h <;> omega

/-- The literal with the all-zero pattern is the number 0. -/
theorem zeroL_eq : zeroL = (0 : EReal) := by
  simp [zeroL, Ideal.ofBits, Ideal.ieee]

/-- The literal 0x3F800000 is the number 1. -/
theorem oneL_eq : oneL = (1 : EReal) := by
  simp [oneL, Ideal.ofBits, Ideal.ieee]
  norm_cast
  norm_num

/-- The literal 0x4C000000 is the number 2^25 = 33554432. -/
theorem totL_eq : totL = ((33554432 : ℝ) : EReal) := by
  simp [totL, Ideal.ofBits, Ideal.ieee]
  norm_cast

/-- The equality comparison of two words gives the bit 1 exactly when the words are equal. -/
theorem cmpi_eq_one (a b : BitVec 32) : IntOp.cmpi .eq a b = (1 : BitVec 1) ↔ a = b := by
  unfold IntOp.cmpi
  by_cases h : a = b
  · simp [h]
  · have hb : (a == b) = false := by simpa using h
    simp [h, hb]

/-- What an element adds to bin b's count is 1 if its word is b and 0 otherwise. -/
theorem cntTerm_eq (b : BitVec 32) (x t : Ideal .f32) :
    cntTerm b x t = if binW x t = b then (1 : EReal) else 0 := by
  unfold cntTerm IntOp.cmpi
  show (((BitVec.setWidth 32 (BitVec.ofBool (binW x t == b))).toInt : ℝ) : EReal) = _
  by_cases h : binW x t = b
  · simp [h]
  · have hb : (binW x t == b) = false := by simpa using h
    simp [h, hb]

/-- What an element adds to bin b's sum is its cross entropy if its word is b and 0 otherwise. -/
theorem bceTerm_eq (b : BitVec 32) (x t : Ideal .f32) :
    bceTerm b x t = if binW x t = b then bce x t else 0 := by
  unfold bceTerm Scalar.select
  simp only [cmpi_eq_one, zeroL_eq]

/-- An element's word is the word of the number b exactly when its bin, as a member of Fin 10, is b. -/
theorem binW_eq_ofNat_iff (x t : Ideal .f32) (h : (binW x t).toNat < 10) (b : Fin 10) :
    binW x t = BitVec.ofNat 32 b.val ↔ binIdx x t h = b := by
  unfold binIdx
  constructor
  · intro e
    apply Fin.ext
    show (binW x t).toNat = b.val
    rw [e, BitVec.toNat_ofNat]
    have := b.isLt
    omega
  · intro e
    have hv : (binW x t).toNat = b.val := congrArg Fin.val e
    rw [← hv, BitVec.ofNat_toNat, BitVec.setWidth_eq]

/-- A bin's weight is a finite non-negative number whatever the count is, an infinite one included: it is 0, or
    tot times the inverse of a number that is at least 1. -/
theorem wS_nonneg_ne_top (c : Ideal .f32) : 0 ≤ wS c ∧ wS c ≠ ⊤ := by
  unfold wS Scalar.select
  split_ifs
  · rw [Ideal.hostDivf_def, Ideal.maximumf_def, oneL_eq, totL_eq]
    have h1 : (1 : EReal) ≤ max c 1 := le_max_right _ _
    have hne : max c 1 ≠ 0 := (lt_of_lt_of_le zero_lt_one h1).ne'
    rw [Ideal.div, if_neg hne]
    generalize max c 1 = y at h1
    induction y using EReal.rec with
    | bot => exact absurd h1 (not_le.mpr (EReal.bot_lt_coe 1))
    | top => simp
    | coe r =>
      rw [← EReal.coe_inv, ← EReal.coe_mul]
      have hr : (1 : ℝ) ≤ r := by exact_mod_cast h1
      have hr0 : (0 : ℝ) < r := lt_of_lt_of_le zero_lt_one hr
      refine ⟨?_, EReal.coe_ne_top _⟩
      exact_mod_cast (by positivity : (0 : ℝ) ≤ 33554432 * r⁻¹)
  · rw [zeroL_eq]
    exact ⟨le_refl _, EReal.zero_ne_top⟩

/-- max(n, 1) is a real number that is at least 1: n is a word read as a number. -/
theorem nMax_eq_coe (cv : FVec Ideal SBins .f32) (hb : SOne.BroadcastsInDim SBins (![] : Fin 0 → Fin SBins.rank))
    (hr : SBins.ReducesTo [0] SOne) (h0 : 0 < SOne.numel) (hlt : 1 < 32) :
    ∃ r : ℝ, 1 ≤ r ∧ nMax cv hb hr h0 hlt = (r : EReal) := by
  obtain ⟨z, hz⟩ : ∃ z : ℤ, nOf cv hb hr h0 hlt = ((z : ℝ) : EReal) := ⟨_, rfl⟩
  unfold nMax
  rw [Ideal.maximumf_def, hz, oneL_eq]
  rcases le_total (z : ℝ) 1 with h | h
  · refine ⟨1, le_refl _, ?_⟩
    rw [max_eq_right (by exact_mod_cast h)]
    rfl
  · refine ⟨z, h, ?_⟩
    rw [max_eq_left (by exact_mod_cast h)]

/-- Regrouping a weighted sum over elements by bin: if every weight is finite and non-negative, the sum over the
    elements of (the weight of the element's bin) times (the element's value) is the sum over the bins of the weight
    times the sum of the values of the elements in that bin. -/
theorem sum_weight_regroup {ι : Type*} [Fintype ι] (β : ι → Fin 10) (v : ι → EReal) (w : Fin 10 → EReal)
    (hw : ∀ b, 0 ≤ w b ∧ w b ≠ ⊤) :
    ∑ e, w (β e) * v e = ∑ b, w b * ∑ e, (if β e = b then v e else 0) := by
  calc ∑ e, w (β e) * v e = ∑ e, ∑ b, (if β e = b then w b * v e else 0) := by
        refine Finset.sum_congr rfl fun e _ => ?_
        rw [Finset.sum_ite_eq, if_pos (Finset.mem_univ _)]
    _ = ∑ b, ∑ e, (if β e = b then w b * v e else 0) := Finset.sum_comm
    _ = ∑ b, w b * ∑ e, (if β e = b then v e else 0) := by
        refine Finset.sum_congr rfl fun b _ => ?_
        rw [EReal.mul_sum_of_nonneg_of_ne_top _ (hw b).1 (hw b).2]
        refine Finset.sum_congr rfl fun e _ => ?_
        split_ifs
        · rfl
        · rw [mul_zero]

/-- The two closed forms over abstract data: elements e of a finite type, each with a bin β e and a value v e;
    finite non-negative bin weights w; a positive real n and a positive real tot. Dividing by a positive real is
    multiplying by its reciprocal, a finite non-negative factor, which moves across the sums; the weighted sum
    over the elements regroups by bin. -/
theorem div_regroup {ι : Type*} [Fintype ι] (β : ι → Fin 10) (v : ι → EReal) (w : Fin 10 → EReal)
    (hw : ∀ b, 0 ≤ w b ∧ w b ≠ ⊤) (n tot : ℝ) (hn : 0 < n) (ht : 0 < tot) :
    Ideal.div (0 + ∑ b, w b * ∑ e, (if β e = b then v e else 0)) ((n : EReal) * (tot : EReal))
      = Ideal.div (0 + ∑ e, Ideal.div (w (β e)) (n : EReal) * v e) (tot : EReal) := by
  have hn0 : n ≠ 0 := hn.ne'
  have ht0 : tot ≠ 0 := ht.ne'
  have hnt0 : n * tot ≠ 0 := mul_ne_zero hn0 ht0
  have ha0 : (0 : EReal) ≤ ((1 / n : ℝ) : EReal) := by
    exact_mod_cast (by positivity : (0 : ℝ) ≤ 1 / n)
  have hat : ((1 / n : ℝ) : EReal) ≠ ⊤ := EReal.coe_ne_top _
  have hw' : ∀ b, 0 ≤ w b * ((1 / n : ℝ) : EReal) ∧ w b * ((1 / n : ℝ) : EReal) ≠ ⊤ := by
    intro b
    obtain ⟨h1, h2⟩ := hw b
    refine ⟨mul_nonneg h1 ha0, ?_⟩
    rw [EReal.mul_ne_top]
    exact ⟨Or.inr ha0, Or.inl h1, Or.inl h2, Or.inr hat⟩
  have key : ∑ e, (w (β e) * ((1 / n : ℝ) : EReal)) * v e
      = (∑ b, w b * ∑ e, (if β e = b then v e else 0)) * ((1 / n : ℝ) : EReal) := by
    rw [sum_weight_regroup β v (fun b => w b * ((1 / n : ℝ) : EReal)) hw',
      EReal.sum_mul_of_nonneg_of_ne_top _ ha0 hat]
    refine Finset.sum_congr rfl fun b _ => ?_
    rw [mul_assoc, mul_assoc, mul_comm ((1 / n : ℝ) : EReal)]
  have hrec : ((1 / (n * tot) : ℝ) : EReal) = ((1 / n : ℝ) : EReal) * ((1 / tot : ℝ) : EReal) := by
    rw [← EReal.coe_mul]
    congr 1
    field_simp
  rw [← EReal.coe_mul, Ideal.div_coe hnt0, Ideal.div_coe ht0, zero_add, zero_add]
  simp only [Ideal.div_coe hn0]
  rw [key, hrec, mul_assoc]

/-- The loss grouped by bin equals the loss taken element by element. -/
theorem lossByBin_eq_lossByElement (hb : SOne.BroadcastsInDim SBins (![] : Fin 0 → Fin SBins.rank))
    (hr : SBins.ReducesTo [0] SOne) (h0 : 0 < SOne.numel) (hlt : 1 < 32) (X T : FVec Ideal SArr .f32) :
    lossByBin hb hr h0 hlt X T = lossByElement hb hr h0 hlt binW_lt X T := by
  obtain ⟨n, hn1, hN⟩ := nMax_eq_coe (cntVec X T) hb hr h0 hlt
  have hn : (0 : ℝ) < n := lt_of_lt_of_le zero_lt_one hn1
  have h := div_regroup (ι := Fin 262144 × Fin 128)
    (fun e => binIdx (X (ix2 e.1 e.2)) (T (ix2 e.1 e.2)) (binW_lt _ _))
    (fun e => bce (X (ix2 e.1 e.2)) (T (ix2 e.1 e.2)))
    (fun b => wS (cnt X T b)) (fun b => wS_nonneg_ne_top _) n 33554432 hn (by norm_num)
  simp only [Fintype.sum_prod_type] at h
  unfold lossByBin lossByElement sm
  simp only [Ideal.hostDivf_def, Ideal.mulf_def, hN, totL_eq, zeroL_eq, bceTerm_eq,
    binW_eq_ofNat_iff _ _ (binW_lt _ _)]
  exact h

end Cert.Ghm

end
-- ==== Proof.KerRow.lean ====
/-
  One row of the kernel's output block, read at a lane.

  The kernel's body computes, for the 4096 x 128 block of probabilities x and targets t it is given, the bin word and
  the cross entropy of every element, and then, for each of the twenty rows k of its 20 x 128 output block, adds to
  the row it loads a lane-wise sum over the 4096 block rows: for k < 10 the sum of the indicator "the element's word
  is k", for k >= 10 the sum of the cross entropies of the elements whose word is k - 10. This module reads those
  pieces at an index over the extended reals: the bin word and the cross entropy of an element are the specification's
  (the kernel writes a negation as 0 - y, which is -y), and a row update at lane l is the loaded value at l plus the
  sum over the block rows r of the summand at (r, l).
-/
import proofs.«117712_j46686294508029_2_alg».proof.Proof.Gen.KernelIdeal.Skeleton
import proofs.«117712_j46686294508029_2_alg».proof.Proof.Spec
import Idealize.ShloMosaic.Lib.Pipeline.Value
import Idealize.ShloMosaic.Lib.ValueIdx
import Idealize.ShloMosaic.PureOps.Ideal.Laws

noncomputable section

open scoped BigOperators

namespace Cert.Ghm.Ker

open Cert.KernelIdeal Cert.KernelIdeal.Gen Cert.Ghm Idealize.ShloMosaic Idealize.ShloMosaic.ValueIdx

/-- The summand of row k for one element: the indicator of bin k for k < 10, the cross entropy selected by bin
    k - 10 for k >= 10. -/
def rowTerm (k : ℕ) (x t : Ideal .f32) : Ideal .f32 :=
  if k < 10 then cntTerm (BitVec.ofNat 32 k) x t else bceTerm (BitVec.ofNat 32 (k - 10)) x t

/-- The kernel's bin word of an element is the specification's. -/
theorem pay4_apply (x0 x1 : Vec Ideal S4096x128 .f32) (j : S4096x128.Idx) :
    k0_pay4 (F := Ideal) x0 x1 j = binW (x0 j) (x1 j) := rfl

/-- On the extended reals 0 - y is -y (also at the infinities). -/
theorem zero_sub_ereal (y : EReal) : (0 : EReal) - y = -y := by
  rw [sub_eq_add_neg, zero_add]

/-- The kernel's cross entropy of an element is the specification's: its two negations are written 0 - y. -/
theorem pay5_apply (x0 x1 : Vec Ideal S4096x128 .f32) (j : S4096x128.Idx) :
    k0_pay5 (F := Ideal) x0 x1 j = bce (x0 j) (x1 j) := by
  show (Ideal.ofBits .f32 0x00000000#32 : EReal)
      - ((x1 j) * Ideal.log (x0 j) + (Ideal.ofBits .f32 0x3F800000#32 - x1 j) * Ideal.log1p (Ideal.ofBits .f32 0x00000000#32 - x0 j))
    = -((x1 j) * Ideal.log (x0 j) + (Ideal.ofBits .f32 0x3F800000#32 - x1 j) * Ideal.log1p (-(x0 j)))
  rw [Ideal.ofBits_zero_f32, zero_sub_ereal, zero_sub_ereal]

/-- Row k's summand is the indicator of bin k for k < 10, and the cross entropy selected by bin k - 10 otherwise. -/
theorem rowTerm_cnt (k : ℕ) (hk : k < 10) (x t : Ideal .f32) : rowTerm k x t = cntTerm (BitVec.ofNat 32 k) x t :=
  if_pos hk
theorem rowTerm_sum (k : ℕ) (hk : ¬k < 10) (x t : Ideal .f32) :
    rowTerm k x t = bceTerm (BitVec.ofNat 32 (k - 10)) x t :=
  if_neg hk

/-- The kernel's count summand (the comparison bit of the bin word with b, widened and read as a number) at an
    element is the specification's indicator of bin b. -/
theorem cnt_summand (x0 x1 : Vec Ideal S4096x128 .f32) (b : BitVec 32) (h : 1 < 32) (j : S4096x128.Idx) :
    sitofp (F := Ideal) .f32 (extui 32 (cmpi .eq (k0_pay4 (F := Ideal) x0 x1) (broadcast S4096x128 b)) h) j
      = cntTerm b (x0 j) (x1 j) := rfl

/-- The kernel's sum summand (the cross entropy where the bin word is b, else 0) at an element is the
    specification's. -/
theorem sum_summand (x0 x1 : Vec Ideal S4096x128 .f32) (b : BitVec 32) (j : S4096x128.Idx) :
    select (cmpi .eq (k0_pay4 (F := Ideal) x0 x1) (broadcast S4096x128 b)) (k0_pay5 (F := Ideal) x0 x1)
        (broadcast S4096x128 (FloatOps.ofBits (F := Ideal) .f32 0x00000000#32)) j
      = bceTerm b (x0 j) (x1 j) := by
  rw [select_apply, pay5_apply]
  rfl

/-- The index of an [1,1,128] value with its leading unit axis dropped, and of a [128] value stood up as one row. -/
theorem tail_ix3 (l : Fin 128) :
    (fun a : Fin 2 => (ix3 (0 : Fin 1) (0 : Fin 1) l : S1x1x128.Idx) a.succ) = (ix2 (0 : Fin 1) l : S1x128.Idx) := by
  funext a
  match a with
  | ⟨0, _⟩ => rfl
  | ⟨1, _⟩ => rfl
theorem tail_ix2 (l : Fin 128) :
    (fun a : Fin 1 => (ix2 (0 : Fin 1) l : S1x128.Idx) a.succ) = (ix1 l : S128.Idx) := by
  funext a
  match a with
  | ⟨0, _⟩ => rfl
/-- The source index of a sum along the rows, over lane l, at block row r, is (r, l). -/
theorem lift_rows (hred : S4096x128.Reduces [0] S128) (l : Fin 128) (r : Fin 4096) :
    hred.lift (ix1 l : S128.Idx) r = (ix2 r l : S4096x128.Idx) := by
  funext a
  apply Fin.ext
  show hred.liftVal (ix1 l : S128.Idx) r.val a = ((ix2 r l : S4096x128.Idx) a).val
  unfold Shape.Reduces.liftVal
  match a with
  | ⟨0, _⟩ => rfl
  | ⟨1, _⟩ => rfl

/-- A ROW UPDATE AT A LANE: the loaded [1,1,128] row, as one row, plus the lane-wise sum over the 4096 block rows of a
    [4096,128] value, stood back up as [1,1,128], at lane l is the loaded value at l plus the sum over the block rows r
    of the value at (r, l). -/
theorem row_update (prev : Vec Ideal S1x1x128 .f32) (V : FVec Ideal S4096x128 .f32)
    (h1 : S1x1x128.ShapeCasts S1x128) (h2 : S128.ShapeCasts S1x128) (h3 : S1x128.ShapeCasts S1x1x128)
    (hred : S4096x128.Reduces [0] S128) (hφ : FKind.Formats .f32)
    (hacc : (0x00000000#32 : BitVec 32) = FKind.add.neutral .f32 hφ) (l : Fin 128) :
    shapeCast S1x1x128 (addf (shapeCast S1x128 prev h1)
        (shapeCast S1x128 (multiReduction (F := Ideal) .add [0] S128 V 0x00000000#32 hred hφ hacc) h2)) h3
        (ix3 (0 : Fin 1) (0 : Fin 1) l)
      = prev (ix3 (0 : Fin 1) (0 : Fin 1) l) + ∑ r : Fin 4096, V (ix2 r l) := by
  rw [shapeCast_addUnit_apply (n := 2) (![1, 128]), tail_ix3, addf_apply,
    shapeCast_dropUnit_apply (n := 2) (![1, 128])]
  refine congrArg₂ (· + ·) (congrArg prev ?_) ?_
  · funext a
    match a with
    | ⟨0, _⟩ => rfl
    | ⟨1, _⟩ => rfl
    | ⟨2, _⟩ => rfl
  · rw [shapeCast_addUnit_apply (n := 1) (![128]), tail_ix2, Ideal.multiReduction_add_single]
    show ∑ r : Fin 4096, V (hred.lift (ix1 l : S128.Idx) r) = ∑ r : Fin 4096, V (ix2 r l)
    exact Finset.sum_congr rfl fun r _ => congrArg V (lift_rows hred l r)

end Cert.Ghm.Ker

end
-- ==== Proof.KerPieces.lean ====
/-
  What one run of the kernel's body leaves in its output block.

  The output block is 20 rows of 128 lanes. The body stores every row k once, and what it stores at lane l is the value
  it loaded from row k at lane l plus the sum, over the 4096 rows r of the input blocks, of row k's summand for the
  element (r, l): the indicator of bin k for k < 10, the cross entropy selected by bin k - 10 for k >= 10. At a grid
  point that is not the first of its half the loaded values are what the block held before, so the block ends at
  "before + lane sums". At the first point of a half the body first stores zeros over the whole block; every row load
  then reads that zero store (the stores between are to other rows), so the block ends at "0 + lane sums".
-/
import proofs.«117712_j46686294508029_2_alg».proof.Proof.Gen.KernelIdeal.Frame
import proofs.«117712_j46686294508029_2_alg».proof.Proof.KerRow

set_option maxRecDepth 16384

noncomputable section

open scoped BigOperators

namespace Cert.Ghm.Ker

open Cert.KernelIdeal Cert.KernelIdeal.Gen Cert.Ghm Idealize.ShloMosaic Idealize.ShloMosaic.ValueIdx
  Idealize.ShloMosaic.TcCoe Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl

/-- The lane of an index of the output block. -/
def lane (y : S1x20x128.Idx) : Fin 128 := ⟨(y 2).val, (y 2).isLt⟩

/-- The lane sums of one pair of input blocks: at (row k, lane l) the sum over the block rows r of row k's summand
    for the element (r, l). -/
def rows (x0 x1 : Vec Ideal S4096x128 .f32) : S1x20x128.Idx → Ideal .f32 :=
  fun y => ∑ r : Fin 4096, rowTerm (y 1).val (x0 (ix2 r (lane y))) (x1 (ix2 r (lane y)))

/-- An index of one stored row is (0, 0, l). -/
theorem idx_unit_row (x : S1x1x128.Idx) : x = ix3 (0 : Fin 1) (0 : Fin 1) (⟨(x 2).val, (x 2).isLt⟩ : Fin 128) := by
  funext a
  match a with
  | ⟨0, _⟩ => exact Subsingleton.elim (α := Fin 1) _ _
  | ⟨1, _⟩ => exact Subsingleton.elim (α := Fin 1) _ _
  | ⟨2, _⟩ => rfl

/-- Lane l of stored row k sits at row k, lane l of the block. -/
theorem emb_row_val (k : ℕ) (inb : ∀ a, (![0, k, 0] : Fin 3 → Nat) a + (![1, 1, 128] : Fin 3 → Nat) a ≤ S1x20x128.size a)
    (l : Fin 128) :
    ((Rect.unit (s := S1x20x128) ![0, k, 0] ![1, 1, 128] inb).emb (ix3 (0 : Fin 1) (0 : Fin 1) l) 1).val = k := by
  show k + 1 * 0 = k
  omega
theorem emb_row_lane (k : ℕ) (inb : ∀ a, (![0, k, 0] : Fin 3 → Nat) a + (![1, 1, 128] : Fin 3 → Nat) a ≤ S1x20x128.size a)
    (l : Fin 128) :
    lane ((Rect.unit (s := S1x20x128) ![0, k, 0] ![1, 1, 128] inb).emb (ix3 (0 : Fin 1) (0 : Fin 1) l)) = l := by
  apply Fin.ext
  show 0 + 1 * l.val = l.val
  omega

set_option maxHeartbeats 1000000 in
/-- NOT THE FIRST POINT OF A HALF: the block ends at what it held plus the lane sums of the point's input blocks. -/
theorem out_B (c : Dev nD) (i : grid0.Coords) (arg2 : Memref sig .tc .vmem S4096x128 .f32) (harg2 : arg2.IsWhole)
    (arg3 : Memref sig .tc .vmem S4096x128 .f32) (harg3 : arg3.IsWhole) (arg4 : Memref sig .tc .vmem S1x20x128 .f32)
    (harg4 : arg4.IsWhole) (hc0 : ¬cond0_0 i) (x0 x1 : Vec Ideal S4096x128 .f32) (xo2 : Vec Ideal S1x20x128 .f32) :
    out0_B_2 (F := Ideal) c i arg2 harg2 arg3 harg3 arg4 harg4 hc0 x0 x1 xo2 = fun y => xo2 y + rows x0 x1 y := by
  unfold out0_B_2
  rw [View.read_writes_eq_canon _ _ _ (cover0_B_2 c i arg2 harg2 arg3 harg3 arg4 harg4 hc0 x0 x1 xo2)]
  funext y
  refine View.canon_apply_of_pieces (fun y => xo2 y + rows x0 x1 y) _ ?_ y
    (cover0_B_2 c i arg2 harg2 arg3 harg3 arg4 harg4 hc0 x0 x1 xo2 y)
  unfold kernelRun0_B
  dsimp only
  sl_unfold_words
  simp only [View.readAt_eq_ld, harg2.read_unread, harg3.read_unread, harg4.read_unread,
    View.ld_unit_zero (S := S4096x128) hz2]
  intro p hp x
  simp only [List.mem_cons, List.mem_nil_iff, or_false] at hp
  rcases hp with rfl | rfl | rfl | rfl | rfl | rfl | rfl | rfl | rfl | rfl | rfl | rfl | rfl | rfl | rfl | rfl | rfl | rfl
    | rfl | rfl
  all_goals
    dsimp only at x ⊢
    obtain ⟨l, rfl⟩ : ∃ l : Fin 128, x = ix3 (0 : Fin 1) (0 : Fin 1) l := ⟨_, idx_unit_row x⟩
    refine (row_update _ _ _ _ _ _ _ _ l).trans (congrArg₂ (· + ·) rfl (Finset.sum_congr rfl fun r _ => ?_))
    rw [emb_row_val, emb_row_lane]
    first
      | (rw [rowTerm_cnt _ (by decide)]; exact cnt_summand x0 x1 _ _ _)
      | (rw [rowTerm_sum _ (by decide)]; exact sum_summand x0 x1 _ _)

/-! ## The first point of a half -/

section Stores

variable {sig' : RefSig} {κ' : Kind} {sp' : Space} {s : Shape} {e : EltTy} {Val : EltTy → Type} [∀ e, Nonempty (Val e)]

/-- Where a store other than the earliest covers an index, the earliest store (the last of the list) does not
    matter: the contents there are those the later stores leave. -/
theorem canon_dropLast : ∀ (L : List (View.Piece Val s e)) (y : s.Idx),
    (∃ p ∈ L.dropLast, y ∈ p.1.set) → View.canon L y = View.canon L.dropLast y
  | [], _, h => by obtain ⟨_, hm, _⟩ := h; exact absurd hm List.not_mem_nil
  | [_], _, h => by obtain ⟨_, hm, _⟩ := h; exact absurd hm List.not_mem_nil
  | p :: q :: L, y, h => by
    show View.canon (p :: q :: L) y = View.canon (p :: (q :: L).dropLast) y
    by_cases hy : y ∈ p.1.set
    · obtain ⟨r, w⟩ := p
      obtain ⟨x, rfl⟩ : ∃ x, r.emb x = y := r.exists_idx_of_mem hy
      rw [View.canon_cons_emb, View.canon_cons_emb]
    · rw [View.canon_cons_of_not_mem p _ hy, View.canon_cons_of_not_mem p _ hy]
      refine canon_dropLast (q :: L) y ?_
      obtain ⟨p', hm, hy'⟩ := h
      rcases List.mem_cons.mp (show p' ∈ p :: (q :: L).dropLast from hm) with rfl | hm'
      · exact absurd hy' hy
      · exact ⟨p', hm', hy'⟩

end Stores

/-- A load of row k of the block does not see a store to another row k'. -/
theorem readCov_skip_row {sig' : RefSig} {κ' : Kind} {sp' : Space} (v : View sig' κ' sp' S1x20x128 .f32) (k k' : ℕ)
    (inb : ∀ a, (![0, k, 0] : Fin 3 → Nat) a + (![1, 1, 128] : Fin 3 → Nat) a ≤ S1x20x128.size a)
    (inb' : ∀ a, (![0, k', 0] : Fin 3 → Nat) a + (![1, 1, 128] : Fin 3 → Nat) a ≤ S1x20x128.size a)
    (w : (Rect.unit (s := S1x20x128) ![0, k', 0] ![1, 1, 128] inb').shape.Idx → Elt Ideal .f32)
    (L : List (View.Piece (Elt Ideal) S1x20x128 .f32)) (hk : k' + 1 ≤ k ∨ k + 1 ≤ k') :
    v.readCov (⟨Rect.unit ![0, k', 0] ![1, 1, 128] inb', w⟩ :: L) (Rect.unit ![0, k, 0] ![1, 1, 128] inb).toLoadRect
      = v.readCov L (Rect.unit ![0, k, 0] ![1, 1, 128] inb).toLoadRect :=
  View.readCov_cons_of_disjoint v _ L _ (Rect.unit_disjoint (inb := inb') (inb' := inb) (1 : Fin 3) hk)

/-- A value of the whole block read through a box. -/
def through (w : S1x20x128.Idx → Elt Ideal .f32) (B : LoadRect S1x20x128) : B.shape.Idx → Elt Ideal .f32 :=
  fun j => w (B.idx j)

/-- A load after the one store that fills the whole block reads that store's value. -/
theorem readCov_whole_store {sig' : RefSig} {κ' : Kind} {sp' : Space} (v : View sig' κ' sp' S1x20x128 .f32)
    (w : S1x20x128.Idx → Elt Ideal .f32)
    (inb : ∀ a, (![0, 0, 0] : Fin 3 → Nat) a + (![1, 20, 128] : Fin 3 → Nat) a ≤ S1x20x128.size a)
    (B : LoadRect S1x20x128) :
    v.readCov [(⟨Rect.unit (s := S1x20x128) ![0, 0, 0] ![1, 20, 128] inb, w⟩ : View.Piece (Elt Ideal) S1x20x128 .f32)] B
      = through w B := by
  rw [View.readCov_eq_canon']
  funext j
  exact congrFun (View.canon_unit_zero (S := S1x20x128) hz3 inb w) (B.idx j)

/-- The block of zeros the first point of a half stores. -/
theorem pay3_apply (j : S1x20x128.Idx) : k0_pay3 (F := Ideal) j = zeroL := rfl
theorem through_zero (B : LoadRect S1x20x128) (j : B.shape.Idx) : through (k0_pay3 (F := Ideal)) B j = zeroL := rfl

open Lean Elab Tactic Meta in
/-- One step of opening a found run: every named intermediate value of the run (a constant with the name component
    `sl`) is replaced, once, by its definition. -/
elab "open_run_values_once" : tactic => do
  let g ← getMainGoal
  let t ← instantiateMVars (← g.getType)
  let t' ← Meta.deltaExpand t (fun n => n.components.any (· == `sl))
  replaceMainGoal [← g.replaceTargetDefEq t']

set_option maxHeartbeats 2000000 in
/-- THE FIRST POINT OF A HALF: the block ends at 0 plus the lane sums of the point's input blocks. -/
theorem out_A (c : Dev nD) (i : grid0.Coords) (arg2 : Memref sig .tc .vmem S4096x128 .f32) (harg2 : arg2.IsWhole)
    (arg3 : Memref sig .tc .vmem S4096x128 .f32) (harg3 : arg3.IsWhole) (arg4 : Memref sig .tc .vmem S1x20x128 .f32)
    (harg4 : arg4.IsWhole) (hc0 : cond0_0 i) (x0 x1 : Vec Ideal S4096x128 .f32) :
    out0_A_2 (F := Ideal) c i arg2 harg2 arg3 harg3 arg4 harg4 hc0 x0 x1 = fun y => zeroL + rows x0 x1 y := by
  unfold out0_A_2
  rw [View.read_writes_eq_canon _ _ _ (cover0_A_2 c i arg2 harg2 arg3 harg3 arg4 harg4 hc0 x0 x1)]
  funext y
  unfold kernelRun0_A
  dsimp only
  open_run_values_once
  simp (disch := decide) only [readCov_skip_row, readCov_whole_store, View.readAt_eq_ld, harg2.read_unread,
    harg3.read_unread, View.ld_unit_zero (S := S4096x128) hz2]
  refine (canon_dropLast _ y ?_).trans ?_
  · exact View.cover_of_tiledL (s := S1x20x128) _ S1x1x128.size (by sl_kernel_rfl) y
  refine View.canon_apply_of_pieces (Val := Elt Ideal) (S := S1x20x128) (e := .f32) (fun y => zeroL + rows x0 x1 y) _ ?_ y ?_
  swap
  · exact View.cover_of_tiledL (s := S1x20x128) _ S1x1x128.size (by sl_kernel_rfl) y
  intro p hp x
  simp only [List.dropLast, List.mem_cons, List.mem_nil_iff, or_false] at hp
  rcases hp with rfl | rfl | rfl | rfl | rfl | rfl | rfl | rfl | rfl | rfl | rfl | rfl | rfl | rfl | rfl | rfl | rfl | rfl
    | rfl | rfl
  all_goals
    dsimp only at x ⊢
    obtain ⟨l, rfl⟩ : ∃ l : Fin 128, x = ix3 (0 : Fin 1) (0 : Fin 1) l := ⟨_, idx_unit_row x⟩
    refine (row_update _ _ _ _ _ _ _ _ l).trans (congrArg₂ (· + ·) (through_zero _ _) (Finset.sum_congr rfl fun r _ => ?_))
    rw [emb_row_val, emb_row_lane]
    first
      | (rw [rowTerm_cnt _ (by decide)]; exact cnt_summand x0 x1 _ _ _)
      | (rw [rowTerm_sum _ (by decide)]; exact sum_summand x0 x1 _ _)

end Cert.Ghm.Ker

end
-- ==== Proof.KerPoint.lean ====
/-
  The output block, grid point by grid point.

  The grid has 64 points: point n handles rows n * 4096 … n * 4096 + 4095 of the two argument arrays, and points
  32 q … 32 q + 31 share the output block of half q. The first point of a half leaves "0 + its lane sums" in the
  block, every later point adds its lane sums to what the point before left. So after point 32 q + i the block holds
  0 plus the sum over i' <= i of the lane sums of point 32 q + i', and the lane sums of point n, read through the
  windows' index maps, are sums over rows n * 4096 + r of the argument arrays.
-/
import proofs.«117712_j46686294508029_2_alg».proof.Proof.Gen.KernelIdeal.Frame
import proofs.«117712_j46686294508029_2_alg».proof.Proof.KerPieces

set_option maxRecDepth 16384

noncomputable section

open scoped BigOperators

namespace Cert.Ghm.Ker

open Cert.KernelIdeal Cert.KernelIdeal.Gen Cert.Ghm Idealize.ShloMosaic Idealize.ShloMosaic.ValueIdx
  Idealize.ShloMosaic.TcCoe Idealize.SL.Sem

variable (m : (ℓ : Loc nD τ sig) → Buf (Elt Ideal) ℓ)

/-- The lane sums of the input blocks of point p (0 for a p beyond the grid). -/
def rowsAt (c : Dev nD) (p : ℕ) : S1x20x128.Idx → Ideal .f32 :=
  fun y => if h : p < cfg0.N then rows (iblk m c 0 ⟨p, h⟩) (iblk m c 1 ⟨p, h⟩) y else 0

/-- What the output block holds after point n: reset to "0 + lane sums" at the first point of a half, "what the point
    before left + lane sums" otherwise. -/
def accN (c : Dev nD) : ℕ → S1x20x128.Idx → Ideal .f32
  | 0 => fun y => zeroL + rowsAt m c 0 y
  | n + 1 =>
    if (n + 1) % 32 = 0 then fun y => zeroL + rowsAt m c (n + 1) y
    else fun y => accN c n y + rowsAt m c (n + 1) y

/-- The block's contents after each point, as the frame run names them, are that running value. -/
theorem outsAt_eq (c : Dev nD) : ∀ (n : ℕ) (h : n < cfg0.N), outsAt0 m c n h = accN m c n
  | 0, h => by
    refine (outsAt0_A m c ⟨0, h⟩ rfl).trans ((out_A ..).trans ?_)
    funext y
    simp only [accN, rowsAt, dif_pos h]
  | n + 1, h => by
    by_cases h0 : (n + 1) % 32 = 0
    · refine (outsAt0_A m c ⟨n + 1, h⟩ h0).trans ((out_A ..).trans ?_)
      funext y
      simp only [accN, if_pos h0, rowsAt, dif_pos h]
    · refine (outsAt0_B m c ⟨n + 1, h⟩ h0).trans ((out_B ..).trans ?_)
      funext y
      show outsAt0 m c n _ y + _ = _
      rw [outsAt_eq c n]
      simp only [accN, if_neg h0, rowsAt, dif_pos h]

/-- After point 32 q + i of half q the block holds 0 plus the lane sums of the points 32 q … 32 q + i. -/
theorem accN_closed (c : Dev nD) (q : ℕ) : ∀ (i : ℕ), i < 32 →
    accN m c (32 * q + i) = fun y => zeroL + ∑ i' ∈ Finset.range (i + 1), rowsAt m c (32 * q + i') y
  | 0, _ => by
    funext y
    rw [Finset.sum_range_one]
    rcases Nat.eq_zero_or_pos q with rfl | hq
    · rfl
    · obtain ⟨n, hn⟩ : ∃ n, 32 * q + 0 = n + 1 := ⟨32 * q - 1, by omega⟩
      rw [hn]
      have h0 : (n + 1) % 32 = 0 := by omega
      simp only [accN, if_pos h0]
  | i + 1, hi => by
    funext y
    have h0 : ¬(32 * q + i + 1) % 32 = 0 := by omega
    show accN m c (32 * q + i + 1) y = _
    simp only [accN, if_neg h0]
    rw [accN_closed c q i (by omega), Finset.sum_range_succ _ (i + 1), add_assoc]
    rfl

end Cert.Ghm.Ker

end
-- ==== Proof.KerArray.lean ====
/-
  From blocks to arrays.

  Input window w (w = 0, 1) at grid point t stages rows t * 4096 … t * 4096 + 4095 of its argument array, all 128
  lanes; so the lane sums of point t are sums over those rows of the argument arrays. The output window stages slab
  t / 32 of the [2, 20, 128] output array and writes it back only at the last point of each half (t = 31 and t = 63),
  so slab q of the output array ends at what the block holds after point 32 q + 31: 0 plus the lane sums of the points
  32 q … 32 q + 31.
-/
import proofs.«117712_j46686294508029_2_alg».proof.Proof.Gen.KernelIdeal.Frame
import proofs.«117712_j46686294508029_2_alg».proof.Proof.KerPoint
import Idealize.ShloMosaic.Lib.Pipeline.Value

set_option maxRecDepth 16384

noncomputable section

open scoped BigOperators

namespace Cert.Ghm.Ker

open Cert.KernelIdeal Cert.KernelIdeal.Gen Cert.Ghm Idealize.ShloMosaic Idealize.ShloMosaic.ValueIdx
  Idealize.ShloMosaic.TcCoe Idealize.SL.Sem
open Idealize.ShloMosaic.Pipeline (Dat)

variable (m : (ℓ : Loc nD τ sig) → Buf (Elt Ideal) ℓ)

/-- The windows' index maps, decided over the 64 grid points: the input windows are at block row t, the output
    window at slab t / 32. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 32 ∧ win0_2.index t (1 : Fin 3) = 0 ∧ win0_2.index t (2 : Fin 3) = 0 :=
  (by decide +kernel : ∀ t : Fin grid0.N, _)

theorem N64 : cfg0.N = 64 := N_0

/-- Row r, lane l of the first input block of point t is row t * 4096 + r, lane l of the first argument array. -/
theorem iblk0_apply (c : Dev nD) (t : Fin cfg0.N) (r : Fin 4096) (l : Fin 128) (hr : t.val * 4096 + r.val < 262144) :
    (iblk m c 0 t : Vec Ideal S4096x128 .f32) (ix2 r l)
      = m ((c : Thread nD τ).loc main_arg0) (ix2 (⟨t.val * 4096 + r.val, hr⟩ : Fin 262144) l) := by
  obtain ⟨e0, e1, -⟩ := idx_facts t
  unfold iblk
  rw [View.read_apply]
  show V m c main_arg0 _ = m ((c : Thread nD τ).loc main_arg0) _
  unfold V
  congr 1
  funext a
  apply Fin.ext
  match a with
  | ⟨0, _⟩ => show win0_0.index t (0 : Fin 2) * 4096 + 1 * r.val = t.val * 4096 + r.val; rw [e0]; omega
  | ⟨1, _⟩ => show win0_0.index t (1 : Fin 2) * 128 + 1 * l.val = l.val; rw [e1]; omega

/-- The same for the second input block and the second argument array. -/
theorem iblk1_apply (c : Dev nD) (t : Fin cfg0.N) (r : Fin 4096) (l : Fin 128) (hr : t.val * 4096 + r.val < 262144) :
    (iblk m c 1 t : Vec Ideal S4096x128 .f32) (ix2 r l)
      = m ((c : Thread nD τ).loc main_arg1) (ix2 (⟨t.val * 4096 + r.val, hr⟩ : Fin 262144) l) := by
  obtain ⟨-, -, e0, e1, -⟩ := idx_facts t
  unfold iblk
  rw [View.read_apply]
  show V m c main_arg1 _ = m ((c : Thread nD τ).loc main_arg1) _
  unfold V
  congr 1
  funext a
  apply Fin.ext
  match a with
  | ⟨0, _⟩ => show win0_1.index t (0 : Fin 2) * 4096 + 1 * r.val = t.val * 4096 + r.val; rw [e0]; omega
  | ⟨1, _⟩ => show win0_1.index t (1 : Fin 2) * 128 + 1 * l.val = l.val; rw [e1]; omega

/-- The argument arrays read by a row NUMBER (0 beyond the last row), so that sums over rows need no bound proofs. -/
def Xn (c : Dev nD) (n : ℕ) (l : Fin 128) : Ideal .f32 :=
  if h : n < 262144 then m ((c : Thread nD τ).loc main_arg0) (ix2 (⟨n, h⟩ : Fin 262144) l) else 0
def Tn (c : Dev nD) (n : ℕ) (l : Fin 128) : Ideal .f32 :=
  if h : n < 262144 then m ((c : Thread nD τ).loc main_arg1) (ix2 (⟨n, h⟩ : Fin 262144) l) else 0

/-- The lane sums of point p at (row k, lane l) are the sum over the rows p * 4096 + r of the argument arrays of
    row k's summand. -/
theorem rowsAt_eq (c : Dev nD) (p : ℕ) (hp : p < 64) (k : Fin 20) (l : Fin 128) :
    rowsAt m c p (ix3 (0 : Fin 1) k l)
      = ∑ r : Fin 4096, rowTerm k.val (Xn m c (p * 4096 + r.val) l) (Tn m c (p * 4096 + r.val) l) := by
  have hpN : p < cfg0.N := by rw [N64]; exact hp
  unfold rowsAt
  rw [dif_pos hpN]
  show ∑ r : Fin 4096, rowTerm k.val ((iblk m c 0 ⟨p, hpN⟩ : Vec Ideal S4096x128 .f32) (ix2 r l))
      ((iblk m c 1 ⟨p, hpN⟩ : Vec Ideal S4096x128 .f32) (ix2 r l)) = _
  refine Finset.sum_congr rfl fun r _ => ?_
  have hr : p * 4096 + r.val < 262144 := by have := r.isLt; omega
  rw [iblk0_apply m c ⟨p, hpN⟩ r l hr, iblk1_apply m c ⟨p, hpN⟩ r l hr]
  unfold Xn Tn
  rw [dif_pos hr, dif_pos hr]

/-- The output array after the run: slab q holds what the block held after the last point of half q. -/
def outArr (c : Dev nD) : S2x20x128.Idx → Ideal .f32 := fun z =>
  accN m c (32 * (z 0).val + 31)
    (ix3 (0 : Fin 1) (⟨(z 1).val, (z 1).isLt⟩ : Fin 20) (⟨(z 2).val, (z 2).isLt⟩ : Fin 128))

/-- An index of the output array is in point t's block iff each coordinate is in the block's range on its axis. -/
theorem mem_blk (t : Fin cfg0.N) (i : S2x20x128.Idx) :
    i ∈ ((cfg0.win 2).blk t).view.set ↔ ∀ a : Fin 3, win0_2.index t a * S1x20x128.size a ≤ (i a).val
      ∧ (i a).val < win0_2.index t a * S1x20x128.size a + S1x20x128.size a := by
  show i ∈ ((View.whole main_v0).slice (win0_2.rect t)).set ↔ _
  rw [View.set_slice_whole, Rect.mem_set_unit]
  exact Iff.rfl

/-- What a flushing point (the last of a half) writes back is its slab of that array. -/
theorem flushed_eq (c : Dev nD) (t : Fin cfg0.N) (hf : (cfg0.win 2).flush t = true) :
    (dats m 0 c).flushed 2 t = ((cfg0.win 2).blk t).view.read (Elt Ideal) (outArr m c) := by
  have h31 : t.val % 32 = 31 := (flush0_2 t).mp hf
  obtain ⟨-, -, -, -, e0, e1, e2⟩ := idx_facts t
  show (cfg0.win 2).cut (grid0.coords t) ((dats m 0 c).after 2 t) = _
  rw [after0_2, outsAt_eq]
  funext j
  show accN m c t.val j = outArr m c (((cfg0.win 2).blk t).view.emb j)
  unfold outArr
  have hj0 : (j 0).val = 0 := by have h := (j 0).isLt; change (j 0).val < 1 at h; omega
  have hq : 32 * ((((cfg0.win 2).blk t).view.emb j) 0).val + 31 = t.val := by
    show 32 * (win0_2.index t (0 : Fin 3) * 1 + 1 * (j 0).val) + 31 = t.val
    rw [e0, hj0]; omega
  rw [hq]
  congr 1
  funext a
  apply Fin.ext
  match a with
  | ⟨0, _⟩ => show (j 0).val = 0; exact hj0
  | ⟨1, _⟩ => show (j 1).val = win0_2.index t (1 : Fin 3) * 20 + 1 * (j 1).val; rw [e1]; omega
  | ⟨2, _⟩ => show (j 2).val = win0_2.index t (2 : Fin 3) * 128 + 1 * (j 2).val; rw [e2]; omega

/-- Every index of the output array is written back by the last point of its half. -/
theorem covered (c : Dev nD) (i : S2x20x128.Idx) :
    ∃ t : Fin cfg0.N, (cfg0.win 2).flush t = true ∧ i ∈ ((cfg0.win 2).blk t).view.set := by
  have hi0 : (i 0).val < 2 := (i 0).isLt
  have hi1 : (i 1).val < 20 := (i 1).isLt
  have hi2 : (i 2).val < 128 := (i 2).isLt
  have hN : 32 * (i 0).val + 31 < cfg0.N := by rw [N64]; omega
  obtain ⟨-, -, -, -, e0, e1, e2⟩ := idx_facts ⟨32 * (i 0).val + 31, hN⟩
  refine ⟨⟨32 * (i 0).val + 31, hN⟩, (flush0_2 _).mpr (by show (32 * (i 0).val + 31) % 32 = 31; omega), ?_⟩
  rw [mem_blk]
  intro a
  match a with
  | ⟨0, _⟩ =>
    show win0_2.index ⟨32 * (i 0).val + 31, hN⟩ (0 : Fin 3) * 1 ≤ (i 0).val
      ∧ (i 0).val < win0_2.index ⟨32 * (i 0).val + 31, hN⟩ (0 : Fin 3) * 1 + 1
    rw [e0]; show (32 * (i 0).val + 31) / 32 * 1 ≤ (i 0).val ∧ (i 0).val < (32 * (i 0).val + 31) / 32 * 1 + 1; omega
  | ⟨1, _⟩ =>
    show win0_2.index ⟨32 * (i 0).val + 31, hN⟩ (1 : Fin 3) * 20 ≤ (i 1).val
      ∧ (i 1).val < win0_2.index ⟨32 * (i 0).val + 31, hN⟩ (1 : Fin 3) * 20 + 20
    rw [e1]; omega
  | ⟨2, _⟩ =>
    show win0_2.index ⟨32 * (i 0).val + 31, hN⟩ (2 : Fin 3) * 128 ≤ (i 2).val
      ∧ (i 2).val < win0_2.index ⟨32 * (i 0).val + 31, hN⟩ (2 : Fin 3) * 128 + 128
    rw [e2]; omega

/-- So the output array ends at that closed form. -/
theorem final_out (c : Dev nD) : (dats m 0 c).arrAt 2 cfg0.N = outArr m c :=
  (dats m 0 c).arrAt_eq_of_cover 2 (outArr m c) (flushed_eq m c) (covered c)

end Cert.Ghm.Ker

end
-- ==== Proof.LibBlockSum.lean ====
/-
  Regrouping a finite sum into consecutive blocks, and a running total as a finite sum.
  Everything here holds in any additive commutative monoid; the extended reals are one
  (their addition is commutative and associative with no finiteness side condition).
-/
import Idealize.ShloMosaic.PureOps.Ideal

open scoped BigOperators

namespace Cert.LibBlockSum

variable {M : Type*} [AddCommMonoid M]

/-- Position `k` of block `i`, for `n` blocks of `m` positions each, is a position below `n * m`. -/
theorem blockIdx_lt {n m i k : ℕ} (hi : i < n) (hk : k < m) : i * m + k < n * m := by
  calc i * m + k < i * m + m := by omega
    _ = (i + 1) * m := by ring
    _ ≤ n * m := Nat.mul_le_mul_right m hi

/-- A sum over `n * m` positions is the sum over the `n` blocks of the sum over the `m` positions
    of each block; position `k` of block `i` is `i * m + k`. -/
theorem sum_blocks_fin (n m : ℕ) (f : Fin (n * m) → M) :
    ∑ j : Fin (n * m), f j
      = ∑ i : Fin n, ∑ k : Fin m, f ⟨i.val * m + k.val, blockIdx_lt i.isLt k.isLt⟩ := by
  rw [← finProdFinEquiv.sum_comp, Fintype.sum_prod_type]
  refine Finset.sum_congr rfl fun i _ => Finset.sum_congr rfl fun k _ => ?_
  congr 1
  ext
  simp only [finProdFinEquiv_apply_val]
  ring

/-- The same regrouping with the block number running over the naturals below `n`. The block number
    is written `i % n`, which is `i` itself there, so that the position is in range for every `i`. -/
theorem sum_blocks_range (n m : ℕ) (hn : 0 < n) (f : Fin (n * m) → M) :
    ∑ j : Fin (n * m), f j
      = ∑ i ∈ Finset.range n, ∑ k : Fin m,
          f ⟨(i % n) * m + k.val, blockIdx_lt (Nat.mod_lt i hn) k.isLt⟩ := by
  rw [sum_blocks_fin n m f,
    ← Fin.sum_univ_eq_sum_range
      (fun i => ∑ k : Fin m, f ⟨(i % n) * m + k.val, blockIdx_lt (Nat.mod_lt i hn) k.isLt⟩) n]
  refine Finset.sum_congr rfl fun i _ => Finset.sum_congr rfl fun k _ => ?_
  congr 1
  ext
  simp only [Nat.mod_eq_of_lt i.isLt]

/-- 8192 positions as 32 blocks of 256, the block number a member of `Fin 32`. -/
theorem sum_blocks_fin32 (f : Fin 8192 → M) :
    ∑ j : Fin 8192, f j
      = ∑ i : Fin 32, ∑ k : Fin 256, f ⟨i.val * 256 + k.val, by omega⟩ :=
  sum_blocks_fin 32 256 f

/-- 8192 positions as 32 blocks of 256, the block number a natural below 32. -/
theorem sum_blocks (f : Fin 8192 → M) :
    ∑ j : Fin 8192, f j
      = ∑ i ∈ Finset.range 32, ∑ k : Fin 256, f ⟨(i % 32) * 256 + k.val, by omega⟩ :=
  sum_blocks_range 32 256 (by norm_num) f

/-- A running total that starts at the first term and adds the next term at every step is, after
    `n` steps, the sum of the first `n + 1` terms. -/
theorem fold_eq_sum (c acc : ℕ → M) (h0 : acc 0 = c 0)
    (hs : ∀ n, acc (n + 1) = acc n + c (n + 1)) (n : ℕ) :
    acc n = ∑ i ∈ Finset.range (n + 1), c i := by
  induction n with
  | zero => simp [h0]
  | succ n ih => rw [hs, ih, Finset.sum_range_succ _ (n + 1)]

end Cert.LibBlockSum
-- ==== Proof.KerSums.lean ====
/-
  Regrouping the rows of the arrays by grid point.

  Row R of a [262144, 128] array belongs to grid point R / 4096, and grid point p to half p / 32. So a sum over the
  lanes, the two halves, the 32 points of a half and the 4096 rows of a point is the sum over all rows and lanes. This
  holds in any additive commutative monoid; the extended reals are one.
-/
import Idealize.ShloMosaic.PureOps.Ideal
import proofs.«117712_j46686294508029_2_alg».proof.Proof.LibBlockSum

open scoped BigOperators

namespace Cert.Ghm

variable {M : Type*} [AddCommMonoid M]

/-- All 262144 rows as 2 halves of 32 points of 4096 rows: row (32 q + i) * 4096 + r. -/
theorem sum_rows_by_point (h : ℕ → M) :
    ∑ R : Fin 262144, h R.val
      = ∑ q : Fin 2, ∑ i ∈ Finset.range 32, ∑ r : Fin 4096, h ((32 * q.val + i) * 4096 + r.val) := by
  have e1 : ∑ R : Fin 262144, h R.val = ∑ p : Fin 64, ∑ r : Fin 4096, h (p.val * 4096 + r.val) :=
    Cert.LibBlockSum.sum_blocks_fin 64 4096 (fun R : Fin (64 * 4096) => h R.val)
  have e2 : ∑ p : Fin 64, ∑ r : Fin 4096, h (p.val * 4096 + r.val)
      = ∑ q : Fin 2, ∑ i : Fin 32, ∑ r : Fin 4096, h ((q.val * 32 + i.val) * 4096 + r.val) :=
    Cert.LibBlockSum.sum_blocks_fin 2 32 (fun p : Fin (2 * 32) => ∑ r : Fin 4096, h (p.val * 4096 + r.val))
  rw [e1, e2]
  refine Finset.sum_congr rfl fun q _ => ?_
  rw [← Fin.sum_univ_eq_sum_range (fun i => ∑ r : Fin 4096, h ((32 * q.val + i) * 4096 + r.val)) 32]
  refine Finset.sum_congr rfl fun i _ => Finset.sum_congr rfl fun r _ => ?_
  rw [Nat.mul_comm q.val 32]

/-- The same with the lanes: lanes outside, halves, points and block rows inside, against rows outside, lanes
    inside. -/
theorem sum_grid (g : ℕ → Fin 128 → M) :
    ∑ l : Fin 128, ∑ q : Fin 2, ∑ i ∈ Finset.range 32, ∑ r : Fin 4096, g ((32 * q.val + i) * 4096 + r.val) l
      = ∑ R : Fin 262144, ∑ l : Fin 128, g R.val l := by
  rw [Finset.sum_comm (s := (Finset.univ : Finset (Fin 262144)))]
  exact Finset.sum_congr rfl fun l _ => (sum_rows_by_point fun n => g n l).symm

end Cert.Ghm
-- ==== Proof.KerTail.lean ====
/-
  The host lines after the kernel, read as the loss grouped by bin.

  After the region @main adds the two slabs of the [2, 20, 128] output array, takes rows 0..9 and rows 10..19 of the
  sum, and adds each row's 128 lanes: that gives the ten per-bin counts and the ten per-bin sums of cross entropies.
  With the array at what the region leaves (slab q: 0 plus the lane sums of the 32 points of half q), a count is the
  sum over ALL rows and lanes of the indicator of its bin, and a per-bin sum likewise, because the rows of the arrays
  are exactly the rows of the 64 points. The remaining lines (weights from the counts, the number of non-empty bins,
  the weighted sum and the final quotient) are the specification's, line for line.
-/
import proofs.«117712_j46686294508029_2_alg».proof.Proof.Gen.KernelIdeal.Frame
import proofs.«117712_j46686294508029_2_alg».proof.Proof.KerArray
import proofs.«117712_j46686294508029_2_alg».proof.Proof.KerSums
import proofs.«117712_j46686294508029_2_alg».proof.Proof.BinLaw
import Idealize.ShloMosaic.Lib.IdealHost
import Idealize.ShloMosaic.Lib.StableHlo.Run
import Idealize.ShloMosaic.Lib.Tactic
import Idealize.ShloMosaic.Lib.Pipeline.Value
import Idealize.ShloMosaic.PureOps.Ideal.Laws

set_option maxRecDepth 16384

noncomputable section

open scoped BigOperators

namespace Cert.Ghm.Ker

open Cert.KernelIdeal Cert.KernelIdeal.Gen Cert.Ghm Idealize.ShloMosaic Idealize.ShloMosaic.ValueIdx
  Idealize.ShloMosaic.TcCoe Idealize.SL.Sem Idealize.ShloMosaic.StableHlo Idealize.ShloMosaic.Tactic
open Idealize.ShloMosaic.Pipeline (Dat)

/-! ## The stages of the tail over an output array -/

/-- The two slabs added. -/
def slabSum (O : FVec Ideal S2x20x128 .f32) : FVec Ideal S20x128 .f32 :=
  Host.reduceAdd O (constant (F := Ideal) S_ .f32 0x00000000#32) reducesTo_S2x20x128_S20x128_d0 h_S_

/-- Rows 0..9 of that, each row's lanes added: the counts. -/
def cntK (O : FVec Ideal S2x20x128 .f32) : FVec Ideal S10 .f32 :=
  Host.reduceAdd (extractStridedSlice S10x128 ![0, 0] (slabSum O) slices_S20x128_S10x128_0_0)
    (constant (F := Ideal) S_ .f32 0x00000000#32) reducesTo_S10x128_S10_d1 h_S_

/-- Rows 10..19 of that, each row's lanes added: the per-bin sums. -/
def smK (O : FVec Ideal S2x20x128 .f32) : FVec Ideal S10 .f32 :=
  Host.reduceAdd (extractStridedSlice S10x128 ![10, 0] (slabSum O) slices_S20x128_S10x128_10_0)
    (constant (F := Ideal) S_ .f32 0x00000000#32) reducesTo_S10x128_S10_d1 h_S_

/-- The source index of the slab sum at (k, l), slab q, is (q, k, l). -/
theorem lift_slab (h : S2x20x128.Reduces [0] S20x128) (k : Fin 20) (l : Fin 128) (q : Fin 2) :
    h.lift (ix2 k l : S20x128.Idx) q = (ix3 q k l : S2x20x128.Idx) := by
  funext a
  apply Fin.ext
  show h.liftVal (ix2 k l : S20x128.Idx) q.val a = ((ix3 q k l : S2x20x128.Idx) a).val
  unfold Shape.Reduces.liftVal
  match a with
  | ⟨0, _⟩ => rfl
  | ⟨1, _⟩ => rfl
  | ⟨2, _⟩ => rfl

/-- The source index of a lane sum at bin b, lane l, is (b, l). -/
theorem lift_lane (h : S10x128.Reduces [1] S10) (b : Fin 10) (l : Fin 128) :
    h.lift (ix1 b : S10.Idx) l = (ix2 b l : S10x128.Idx) := by
  funext a
  apply Fin.ext
  show h.liftVal (ix1 b : S10.Idx) l.val a = ((ix2 b l : S10x128.Idx) a).val
  unfold Shape.Reduces.liftVal
  match a with
  | ⟨0, _⟩ => rfl
  | ⟨1, _⟩ => rfl

theorem slabSum_apply (O : FVec Ideal S2x20x128 .f32) (k : Fin 20) (l : Fin 128) :
    slabSum O (ix2 k l) = zeroL + ∑ q : Fin 2, O (ix3 q k l) := by
  have hR : S2x20x128.Reduces [0] S20x128 := by decide
  unfold slabSum
  rw [hostReduceAdd_apply, Ideal.hostReduceAdd_single _ hR]
  refine congrArg₂ (· + ·) rfl ?_
  show ∑ q : Fin 2, O (hR.lift (ix2 k l : S20x128.Idx) q) = ∑ q : Fin 2, O (ix3 q k l)
  exact Finset.sum_congr rfl fun q _ => congrArg O (lift_slab hR k l q)

/-- A lane sum of ten rows starting at row o of the slab sum. -/
theorem laneSum_apply (O : FVec Ideal S2x20x128 .f32) (o : ℕ) (ho : o + 10 ≤ 20) (hs : S20x128.Slices ![o, 0] S10x128)
    (b : Fin 10) :
    Host.reduceAdd (extractStridedSlice S10x128 ![o, 0] (slabSum O) hs)
        (constant (F := Ideal) S_ .f32 0x00000000#32) reducesTo_S10x128_S10_d1 h_S_ (ix1 b)
      = zeroL + ∑ l : Fin 128, (zeroL + ∑ q : Fin 2, O (ix3 q (⟨o + b.val, by omega⟩ : Fin 20) l)) := by
  have hR : S10x128.Reduces [1] S10 := by decide
  rw [hostReduceAdd_apply, Ideal.hostReduceAdd_single _ hR]
  refine congrArg₂ (· + ·) rfl ?_
  show ∑ l : Fin 128, extractStridedSlice S10x128 ![o, 0] (slabSum O) hs (hR.lift (ix1 b : S10.Idx) l)
    = ∑ l : Fin 128, (zeroL + ∑ q : Fin 2, O (ix3 q (⟨o + b.val, by omega⟩ : Fin 20) l))
  refine Finset.sum_congr rfl fun l _ => ?_
  rw [lift_lane hR, extractStridedSlice_apply ![o, 0] (slabSum O) hs (ix2 b l) (ix2 (⟨o + b.val, by omega⟩ : Fin 20) l)
    (fun a => by
      match a with
      | ⟨0, _⟩ => rfl
      | ⟨1, _⟩ => show l.val = 0 + l.val; omega),
    slabSum_apply]

/-! ## The output array the region leaves, summed -/

variable (m : (ℓ : Loc nD τ sig) → Buf (Elt Ideal) ℓ)

/-- Slab q of the output array at (row k, lane l): 0 plus, over the 32 points of half q and the 4096 rows of each,
    row k's summand. -/
theorem outArr_apply (c : Dev nD) (q : Fin 2) (k : Fin 20) (l : Fin 128) :
    outArr m c (ix3 q k l) = zeroL + ∑ i ∈ Finset.range 32, ∑ r : Fin 4096,
      rowTerm k.val (Xn m c ((32 * q.val + i) * 4096 + r.val) l) (Tn m c ((32 * q.val + i) * 4096 + r.val) l) := by
  show accN m c (32 * q.val + 31) (ix3 (0 : Fin 1) k l) = _
  rw [accN_closed m c q.val 31 (by omega)]
  show zeroL + ∑ i ∈ Finset.range 32, rowsAt m c (32 * q.val + i) (ix3 (0 : Fin 1) k l) = _
  refine congrArg₂ (· + ·) rfl (Finset.sum_congr rfl fun i hi => ?_)
  have hi' : i < 32 := Finset.mem_range.mp hi
  have hq : q.val < 2 := q.isLt
  exact rowsAt_eq m c (32 * q.val + i) (by omega) k l

/-- The argument arrays by row number, at a row of the array, are the arrays. -/
theorem Xn_val (c : Dev nD) (R : Fin 262144) (l : Fin 128) :
    Xn m c R.val l = m ((c : Thread nD τ).loc main_arg0) (ix2 R l) := by
  unfold Xn; rw [dif_pos R.isLt]
theorem Tn_val (c : Dev nD) (R : Fin 262144) (l : Fin 128) :
    Tn m c R.val l = m ((c : Thread nD τ).loc main_arg1) (ix2 R l) := by
  unfold Tn; rw [dif_pos R.isLt]

/-- ROW k OF THE TAIL'S LANE SUMS over the array the region leaves: the sum over all rows and lanes of the argument
    arrays of row k's summand (the zeros the sums start from vanish; the rows of the 64 points are all the rows). -/
theorem rowTotal (c : Dev nD) (k : Fin 20) :
    zeroL + ∑ l : Fin 128, (zeroL + ∑ q : Fin 2, outArr m c (ix3 q k l))
      = ∑ R : Fin 262144, ∑ l : Fin 128, rowTerm k.val (m ((c : Thread nD τ).loc main_arg0) (ix2 R l))
          (m ((c : Thread nD τ).loc main_arg1) (ix2 R l)) := by
  simp only [outArr_apply, zeroL_eq, zero_add]
  rw [sum_grid (fun n l => rowTerm k.val (Xn m c n l) (Tn m c n l))]
  exact Finset.sum_congr rfl fun R _ => Finset.sum_congr rfl fun l _ => by rw [Xn_val, Tn_val]

/-- The tail's counts over the array the region leaves are the specification's counts. -/
theorem cntK_out (c : Dev nD) :
    cntK (outArr m c) = cntVec (m ((c : Thread nD τ).loc main_arg0)) (m ((c : Thread nD τ).loc main_arg1)) := by
  funext j
  obtain ⟨b, rfl⟩ : ∃ b : Fin 10, j = ix1 b := ⟨j 0, eq_ix1 j⟩
  unfold cntK
  rw [laneSum_apply (outArr m c) 0 (by omega) slices_S20x128_S10x128_0_0 b]
  have e : (⟨0 + b.val, by have := b.isLt; omega⟩ : Fin 20) = ⟨b.val, by have := b.isLt; omega⟩ := Fin.ext (by simp)
  rw [e, rowTotal m c ⟨b.val, by have := b.isLt; omega⟩]
  show _ = cnt _ _ b
  unfold cnt
  exact Finset.sum_congr rfl fun R _ => Finset.sum_congr rfl fun l _ => rowTerm_cnt b.val b.isLt _ _

/-- The tail's per-bin sums over the array the region leaves are the specification's. -/
theorem smK_out (c : Dev nD) (b : Fin 10) :
    smK (outArr m c) (ix1 b)
      = sm (m ((c : Thread nD τ).loc main_arg0)) (m ((c : Thread nD τ).loc main_arg1)) b := by
  unfold smK
  rw [laneSum_apply (outArr m c) 10 (by omega) slices_S20x128_S10x128_10_0 b,
    rowTotal m c ⟨10 + b.val, by have := b.isLt; omega⟩]
  unfold sm
  refine Finset.sum_congr rfl fun R _ => Finset.sum_congr rfl fun l _ => ?_
  rw [rowTerm_sum (10 + b.val) (by omega)]
  show bceTerm (BitVec.ofNat 32 (10 + b.val - 10)) _ _ = bceTerm (BitVec.ofNat 32 b.val) _ _
  rw [Nat.add_sub_cancel_left]

/-! ## The rest of the tail, and the run -/

/-- The lines after the counts and the per-bin sums: weights, the number of non-empty bins, the weighted sum over
    the ten bins, the quotient. -/
def tailOf (cv sv : FVec Ideal S10 .f32) : FVec Ideal S_ .f32 :=
  Host.divf
    (Host.reduceAdd
      (mulf
        (select (cmpf .ogt cv (broadcastInDim S10 ![] bcast_S_S10 (constant (F := Ideal) S_ .f32 0x00000000#32)))
          (Host.divf (broadcastInDim S10 ![] bcast_S_S10 (constant (F := Ideal) S_ .f32 0x4C000000#32))
            (maximumf cv (broadcastInDim S10 ![] bcast_S_S10 (constant (F := Ideal) S_ .f32 0x3F800000#32))))
          (broadcastInDim S10 ![] bcast_S_S10 (constant (F := Ideal) S_ .f32 0x00000000#32)))
        sv)
      (constant (F := Ideal) S_ .f32 0x00000000#32) reducesTo_S10_S_d0 h_S_)
    (mulf
      (maximumf
        (sitofp .f32 (Host.reduce IntOp.addi
          (extui 32 (cmpf .ogt cv (broadcastInDim S10 ![] bcast_S_S10 (constant (F := Ideal) S_ .f32 0x00000000#32)))
            natLt_1_32)
          (constantI S_ 32 0#32) reducesTo_S10_S_d0 h_S_))
        (constant (F := Ideal) S_ .f32 0x3F800000#32))
      (constant (F := Ideal) S_ .f32 0x4C000000#32))

/-- A sum over the indices of a vector is the sum over its positions. -/
theorem sum_idx1 {M : Type*} [AddCommMonoid M] {n : Nat} (f : (⟨1, ![n]⟩ : Shape).Idx → M) :
    ∑ i, f i = ∑ b : Fin n, f (ix1 b) :=
  Fintype.sum_equiv ⟨fun i => (i 0 : Fin n), fun b => ix1 b, fun i => (eq_ix1 i).symm, fun _ => rfl⟩ _ _
    (fun i => congrArg f (eq_ix1 i))

/-- Those lines, read: (0 + the sum over the ten bins of the weight of the count times the per-bin sum) divided by
    max(n, 1) * tot, with the weight and n the specification's functions of the counts. -/
theorem tailOf_apply (cv sv : FVec Ideal S10 .f32) (i : S_.Idx) :
    tailOf cv sv i
      = FloatOps.hostDivf (zeroL + ∑ b : Fin 10, FloatOps.mulf (wS (cv (ix1 b))) (sv (ix1 b)))
          (FloatOps.mulf (nMax cv bcast_S_S10 reducesTo_S10_S_d0 h_S_ natLt_1_32) totL) := by
  obtain rfl : i = ix0 := eq_ix0 i
  unfold tailOf
  show FloatOps.hostDivf (Host.reduceAdd _ _ reducesTo_S10_S_d0 h_S_ ix0) _ = _
  rw [hostReduceAdd_apply, Ideal.hostReduceAdd_total reducesTo_S10_S_d0 (fun b => b.elim0), sum_idx1]
  rfl

/-- @main's result after the region, over the array the region leaves, is those stages composed. -/
theorem tail_eq (c : Dev nD) :
    Pipeline.afterTail₀ cfgs (dats m) 0 (V0 m) [hostOps1, hostOps1_1, hostOps1_2] c main_v22
      = tailOf (cntK (outArr m c)) (smK (outArr m c)) := by
  have hW : Pipeline.withArrays (cfgs 0).spec c (V0 m c) (fun w => (dats m 0 c).arrAt w (cfgs 0).N)
      (Proc.devRef .tc main_v0) = outArr m c :=
    (Pipeline.withArrays_arr spec0 launch0.win.arr_inj c _ _ 2).trans (final_out m c)
  unfold Pipeline.afterTail₀
  simp only [hostOps1, hostOps1_1, hostOps1_2, List.flatten_cons, List.flatten_nil, List.append_nil, List.cons_append,
    List.nil_append]
  after_results_simp
  rw [hW]
  rfl

/-- THE KERNEL'S RESULT is the loss grouped by bin, of the two argument arrays. -/
theorem kernel_value (c : Dev nD) :
    Pipeline.afterTail₀ cfgs (dats m) 0 (V0 m) [hostOps1, hostOps1_1, hostOps1_2] c main_v22
      = fun _ => lossByBin bcast_S_S10 reducesTo_S10_S_d0 h_S_ natLt_1_32
          (m ((c : Thread nD τ).loc main_arg0)) (m ((c : Thread nD τ).loc main_arg1)) := by
  rw [tail_eq]
  funext i
  rw [tailOf_apply, cntK_out]
  unfold lossByBin
  simp only [smK_out]
  rfl

/-- The result buffer is neither scoped nor one of the region's arrays. -/
theorem result_mem : main_v22 ∈ Pipeline.restRefs sig (cfgs 0).spec :=
  Pipeline.mem_restRefs_of main_v22 rfl (fun w => by fin_cases w <;> decide)

/-- The kernel's run, read: every weakly fair execution ends with the result at the loss grouped by bin and the
    argument arrays unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v22)
          = (fun _ => lossByBin bcast_S_S10 reducesTo_S10_S_d0 h_S_ natLt_1_32
              (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v22 result_mem).trans (kernel_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Ghm.Ker

end
-- ==== Proof.LibScatterAddRows.lean ====
/-
  A scatter-add of rows into a table, read at an index.

  table.at[idx].add(updates) for a table of N rows, B integer row numbers and B update rows lowers to a
  stablehlo.scatter with an add body whose scatter indices are a [B, 1] array and whose update windows are whole
  rows. Update row b is added into the table row whose number is the word idx[b] read as a SIGNED integer; the
  word is neither wrapped nor clamped, and an update whose word names no row (negative, or N and above) is dropped.
  So entry (n, ·) of the result is the table's entry plus the sum of the same entry of every update row b with
  idx[b] = n as integers. Two layouts occur: rows of C numbers (operand [N, C], updates [B, C]) and rows that are
  H × D blocks (operand [N, H, D], updates [B, H, D]).

  The route: an update index lands on a table index exactly when, on every axis, its start plus its window
  coordinate is that index's coordinate (resultIdx?_eq_some_iff); for these dimension numbers the start is the row
  word on axis 0 and 0 elsewhere, the window coordinate 0 on axis 0 and the update's own coordinate elsewhere; the
  update indices that land on (n, c) are then exactly (b, c) over the rows b with idx[b] = n.
-/
import Idealize.ShloMosaic.PureOps.Ideal
import Idealize.ShloMosaic.Lib.ValueIdx

noncomputable section

open scoped BigOperators

namespace Idealize.ShloMosaic.ScatterAddRows

open Idealize.ShloMosaic Idealize.ShloMosaic.ValueIdx

/-! ## Any scatter -/

section
variable {s si u : Shape} (d : ScatterDims s si u)

/-- An update index lands on the operand index i exactly when start plus window coordinate is i's coordinate on
    every axis: the in-range test adds nothing, since i's coordinates are in range. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro heq a
      have hi := Option.some.inj heq
      have ha := h a
      rw [← hi]
      show _ = ((d.start j idx a + (d.window j a : Int)).toNat : Int)
      omega
    · intro hall
      congr 1
      funext a
      refine Fin.ext ?_
      have ha := h a
      have he := hall a
      show (d.start j idx a + (d.window j a : Int)).toNat = (i a).val
      omega
  · rename_i h
    constructor
    · intro heq; cases heq
    · intro hall
      exfalso
      apply h
      intro a
      have he := hall a
      have hlt := (i a).isLt
      omega

/-- The operand axes the update windows go to are the ones that are not inserted. -/
theorem mem_sKept (a : Fin s.rank) : a ∈ d.sKept ↔ a ∉ d.insertedWindowDims := by
  simp [ScatterDims.sKept, Shape.kept, List.mem_filter, List.mem_finRange]

/-- On an axis the scatter indices do not name, the window starts at 0. -/
theorem start_eq_zero {w : Nat} (j : u.Idx) (idx : IVec si w) (a : Fin s.rank)
    (ha : a ∉ d.scatterDimsToOperandDims) : d.start j idx a = 0 := by
  unfold ScatterDims.start; rw [dif_neg ha]

/-- On an inserted axis the window coordinate is 0. -/
theorem window_eq_zero (j : u.Idx) (a : Fin s.rank) (ha : a ∉ d.sKept) : d.window j a = 0 := by
  unfold ScatterDims.window; rw [dif_neg ha]

end

/-! ## Rows of C numbers -/

/-- Operand [N, C], scatter indices [B, 1], updates [B, C]: update row b goes to the row idx[b] names. -/
abbrev rowsDims (N C B : Nat)
    (wf : ScatterDims.WF ⟨2, ![N, C]⟩ ⟨2, ![B, 1]⟩ ⟨2, ![B, C]⟩ [1] [0] [0] 1) :
    ScatterDims ⟨2, ![N, C]⟩ ⟨2, ![B, 1]⟩ ⟨2, ![B, C]⟩ where
  updateWindowDims := [1]
  insertedWindowDims := [0]
  scatterDimsToOperandDims := [0]
  indexVectorDim := 1
  wf := wf

section Rows
variable {N C B w : Nat} (wf : ScatterDims.WF ⟨2, ![N, C]⟩ ⟨2, ![B, 1]⟩ ⟨2, ![B, C]⟩ [1] [0] [0] 1)

/-- The window of update (b, c') starts, on the row axis, at the word idx[b] read signed. -/
theorem rows_start0 (idx : IVec ⟨2, ![B, 1]⟩ w) (b : Fin B) (c' : Fin C) :
    (rowsDims N C B wf).start (ix2 b c') idx (⟨0, by decide⟩ : Fin 2) = (idx (ix2 b (0 : Fin 1))).toInt := by
  unfold ScatterDims.start
  rw [dif_pos (show (⟨0, by decide⟩ : Fin 2) ∈ (rowsDims N C B wf).scatterDimsToOperandDims from
    List.mem_singleton.mpr rfl)]
  have hsi : (rowsDims N C B wf).siIdx (ix2 b c')
      ⟨List.idxOf (⟨0, by decide⟩ : Fin 2) (rowsDims N C B wf).scatterDimsToOperandDims,
        List.idxOf_lt_length_iff.2 (List.mem_singleton.mpr rfl)⟩ = ix2 b (0 : Fin 1) := by
    funext a; refine Fin.ext ?_
    match a with
    | ⟨0, _⟩ => rfl
    | ⟨1, _⟩ => rfl
  rw [hsi]

/-- The window coordinate of update (b, c') on the column axis is c'. -/
theorem rows_window1 (b : Fin B) (c' : Fin C) :
    (rowsDims N C B wf).window (ix2 b c') (⟨1, by decide⟩ : Fin 2) = c'.val := by
  unfold ScatterDims.window
  rw [dif_pos ((mem_sKept _ _).mpr (by decide : ¬ (⟨1, by decide⟩ : Fin 2) ∈ ([0] : List (Fin 2))))]
  rfl

/-- Update (b, c') lands on table entry (n, c) exactly when the word idx[b], read signed, is n, and c' = c. -/
theorem rows_lands_iff (idx : IVec ⟨2, ![B, 1]⟩ w) (b : Fin B) (c' : Fin C) (n : Fin N) (c : Fin C) :
    (rowsDims N C B wf).resultIdx? (ix2 b c') idx = some (ix2 n c)
      ↔ (idx (ix2 b (0 : Fin 1))).toInt = (n.val : Int) ∧ c' = c := by
  rw [resultIdx?_eq_some_iff]
  have hw0 : (rowsDims N C B wf).window (ix2 b c') (⟨0, by decide⟩ : Fin 2) = 0 :=
    window_eq_zero _ _ _ (fun h => ((mem_sKept _ _).mp h) (List.mem_singleton.mpr rfl))
  have hs1 : (rowsDims N C B wf).start (ix2 b c') idx (⟨1, by decide⟩ : Fin 2) = 0 :=
    start_eq_zero _ _ _ _ (by decide : ¬ (⟨1, by decide⟩ : Fin 2) ∈ ([0] : List (Fin 2)))
  constructor
  · intro h
    have h0 := h (⟨0, by decide⟩ : Fin 2)
    have h1 := h (⟨1, by decide⟩ : Fin 2)
    rw [rows_start0, hw0] at h0
    rw [hs1, rows_window1] at h1
    refine ⟨?_, Fin.ext ?_⟩
    · have h0' : (idx (ix2 b (0 : Fin 1))).toInt + ((0 : Nat) : Int) = (n.val : Int) := h0
      omega
    · have h1' : (0 : Int) + (c'.val : Int) = (c.val : Int) := h1
      omega
  · rintro ⟨h0, rfl⟩ a
    match a with
    | ⟨0, _⟩ =>
      rw [rows_start0, hw0]
      show _ = (n.val : Int)
      omega
    | ⟨1, _⟩ =>
      rw [hs1, rows_window1]
      show _ = (c'.val : Int)
      omega

/-- Entry (n, c) of the scatter-add: the table's entry plus the sum, over the update rows b whose word idx[b] read
    signed is n, of entry c of update row b. -/
theorem scatterAdd_rows_apply {φ : FTy} (x : (⟨2, ![N, C]⟩ : Shape).Idx → EReal) (idx : IVec ⟨2, ![B, 1]⟩ w)
    (upd : (⟨2, ![B, C]⟩ : Shape).Idx → EReal) (n : Fin N) (c : Fin C) :
    Host.scatterAdd (F := Ideal) (φ := φ) (rowsDims N C B wf) x idx upd (ix2 n c)
      = x (ix2 n c) + ∑ b ∈ Finset.univ.filter (fun b : Fin B => (idx (ix2 b (0 : Fin 1))).toInt = (n.val : Int)),
          upd (ix2 b c) := by
  show x (ix2 n c) + ∑ j ∈ Finset.univ.filter
      (fun j => (rowsDims N C B wf).resultIdx? j idx = some (ix2 n c)), upd j = _
  congr 1
  refine Finset.sum_nbij' (fun j => (j 0 : Fin B)) (fun b => ix2 b c) ?_ ?_ ?_ ?_ ?_
  · intro j hj
    obtain ⟨b, c', rfl⟩ : ∃ (b : Fin B) (c' : Fin C), j = ix2 b c' := ⟨j 0, j 1, eq_ix2 j⟩
    have h := (rows_lands_iff wf idx b c' n c).mp (Finset.mem_filter.mp hj).2
    exact Finset.mem_filter.mpr ⟨Finset.mem_univ _, h.1⟩
  · intro b hb
    exact Finset.mem_filter.mpr ⟨Finset.mem_univ _,
      (rows_lands_iff wf idx b c n c).mpr ⟨(Finset.mem_filter.mp hb).2, rfl⟩⟩
  · intro j hj
    obtain ⟨b, c', rfl⟩ : ∃ (b : Fin B) (c' : Fin C), j = ix2 b c' := ⟨j 0, j 1, eq_ix2 j⟩
    have h := (rows_lands_iff wf idx b c' n c).mp (Finset.mem_filter.mp hj).2
    show ix2 b c = ix2 b c'
    rw [h.2]
  · intro b _
    rfl
  · intro j hj
    obtain ⟨b, c', rfl⟩ : ∃ (b : Fin B) (c' : Fin C), j = ix2 b c' := ⟨j 0, j 1, eq_ix2 j⟩
    have h := (rows_lands_iff wf idx b c' n c).mp (Finset.mem_filter.mp hj).2
    show upd (ix2 b c') = upd (ix2 b c)
    rw [h.2]

end Rows

/-! ## Rows that are H × D blocks -/

/-- Operand [N, H, D], scatter indices [B, 1], updates [B, H, D]: update block b goes to the row idx[b] names. -/
abbrev rows3Dims (N H D B : Nat)
    (wf : ScatterDims.WF ⟨3, ![N, H, D]⟩ ⟨2, ![B, 1]⟩ ⟨3, ![B, H, D]⟩ [1, 2] [0] [0] 1) :
    ScatterDims ⟨3, ![N, H, D]⟩ ⟨2, ![B, 1]⟩ ⟨3, ![B, H, D]⟩ where
  updateWindowDims := [1, 2]
  insertedWindowDims := [0]
  scatterDimsToOperandDims := [0]
  indexVectorDim := 1
  wf := wf

section Rows3
variable {N H D B w : Nat} (wf : ScatterDims.WF ⟨3, ![N, H, D]⟩ ⟨2, ![B, 1]⟩ ⟨3, ![B, H, D]⟩ [1, 2] [0] [0] 1)

/-- The window of update (b, h', k') starts, on the row axis, at the word idx[b] read signed. -/
theorem rows3_start0 (idx : IVec ⟨2, ![B, 1]⟩ w) (b : Fin B) (h' : Fin H) (k' : Fin D) :
    (rows3Dims N H D B wf).start (ix3 b h' k') idx (⟨0, by decide⟩ : Fin 3) = (idx (ix2 b (0 : Fin 1))).toInt := by
  unfold ScatterDims.start
  rw [dif_pos (show (⟨0, by decide⟩ : Fin 3) ∈ (rows3Dims N H D B wf).scatterDimsToOperandDims from
    List.mem_singleton.mpr rfl)]
  have hsi : (rows3Dims N H D B wf).siIdx (ix3 b h' k')
      ⟨List.idxOf (⟨0, by decide⟩ : Fin 3) (rows3Dims N H D B wf).scatterDimsToOperandDims,
        List.idxOf_lt_length_iff.2 (List.mem_singleton.mpr rfl)⟩ = ix2 b (0 : Fin 1) := by
    funext a; refine Fin.ext ?_
    match a with
    | ⟨0, _⟩ => rfl
    | ⟨1, _⟩ => rfl
  rw [hsi]

/-- The window coordinate of update (b, h', k') on the second axis is h'. -/
theorem rows3_window1 (b : Fin B) (h' : Fin H) (k' : Fin D) :
    (rows3Dims N H D B wf).window (ix3 b h' k') (⟨1, by decide⟩ : Fin 3) = h'.val := by
  unfold ScatterDims.window
  rw [dif_pos ((mem_sKept _ _).mpr (by decide : ¬ (⟨1, by decide⟩ : Fin 3) ∈ ([0] : List (Fin 3))))]
  rfl

/-- The window coordinate of update (b, h', k') on the third axis is k'. -/
theorem rows3_window2 (b : Fin B) (h' : Fin H) (k' : Fin D) :
    (rows3Dims N H D B wf).window (ix3 b h' k') (⟨2, by decide⟩ : Fin 3) = k'.val := by
  unfold ScatterDims.window
  rw [dif_pos ((mem_sKept _ _).mpr (by decide : ¬ (⟨2, by decide⟩ : Fin 3) ∈ ([0] : List (Fin 3))))]
  rfl

/-- Update (b, h', k') lands on table entry (n, h, k) exactly when the word idx[b], read signed, is n, and
    (h', k') = (h, k). -/
theorem rows3_lands_iff (idx : IVec ⟨2, ![B, 1]⟩ w) (b : Fin B) (h' : Fin H) (k' : Fin D)
    (n : Fin N) (h : Fin H) (k : Fin D) :
    (rows3Dims N H D B wf).resultIdx? (ix3 b h' k') idx = some (ix3 n h k)
      ↔ (idx (ix2 b (0 : Fin 1))).toInt = (n.val : Int) ∧ h' = h ∧ k' = k := by
  rw [resultIdx?_eq_some_iff]
  have hw0 : (rows3Dims N H D B wf).window (ix3 b h' k') (⟨0, by decide⟩ : Fin 3) = 0 :=
    window_eq_zero _ _ _ (fun hm => ((mem_sKept _ _).mp hm) (List.mem_singleton.mpr rfl))
  have hs1 : (rows3Dims N H D B wf).start (ix3 b h' k') idx (⟨1, by decide⟩ : Fin 3) = 0 :=
    start_eq_zero _ _ _ _ (by decide : ¬ (⟨1, by decide⟩ : Fin 3) ∈ ([0] : List (Fin 3)))
  have hs2 : (rows3Dims N H D B wf).start (ix3 b h' k') idx (⟨2, by decide⟩ : Fin 3) = 0 :=
    start_eq_zero _ _ _ _ (by decide : ¬ (⟨2, by decide⟩ : Fin 3) ∈ ([0] : List (Fin 3)))
  constructor
  · intro hall
    have h0 := hall (⟨0, by decide⟩ : Fin 3)
    have h1 := hall (⟨1, by decide⟩ : Fin 3)
    have h2 := hall (⟨2, by decide⟩ : Fin 3)
    rw [rows3_start0, hw0] at h0
    rw [hs1, rows3_window1] at h1
    rw [hs2, rows3_window2] at h2
    refine ⟨?_, Fin.ext ?_, Fin.ext ?_⟩
    · have h0' : (idx (ix2 b (0 : Fin 1))).toInt + ((0 : Nat) : Int) = (n.val : Int) := h0
      omega
    · have h1' : (0 : Int) + (h'.val : Int) = (h.val : Int) := h1
      omega
    · have h2' : (0 : Int) + (k'.val : Int) = (k.val : Int) := h2
      omega
  · rintro ⟨h0, rfl, rfl⟩ a
    match a with
    | ⟨0, _⟩ =>
      rw [rows3_start0, hw0]
      show _ = (n.val : Int)
      omega
    | ⟨1, _⟩ =>
      rw [hs1, rows3_window1]
      show _ = (h'.val : Int)
      omega
    | ⟨2, _⟩ =>
      rw [hs2, rows3_window2]
      show _ = (k'.val : Int)
      omega

/-- Entry (n, h, k) of the scatter-add: the table's entry plus the sum, over the update blocks b whose word idx[b]
    read signed is n, of entry (h, k) of update block b. -/
theorem scatterAdd_rows3_apply {φ : FTy} (x : (⟨3, ![N, H, D]⟩ : Shape).Idx → EReal) (idx : IVec ⟨2, ![B, 1]⟩ w)
    (upd : (⟨3, ![B, H, D]⟩ : Shape).Idx → EReal) (n : Fin N) (h : Fin H) (k : Fin D) :
    Host.scatterAdd (F := Ideal) (φ := φ) (rows3Dims N H D B wf) x idx upd (ix3 n h k)
      = x (ix3 n h k) + ∑ b ∈ Finset.univ.filter (fun b : Fin B => (idx (ix2 b (0 : Fin 1))).toInt = (n.val : Int)),
          upd (ix3 b h k) := by
  show x (ix3 n h k) + ∑ j ∈ Finset.univ.filter
      (fun j => (rows3Dims N H D B wf).resultIdx? j idx = some (ix3 n h k)), upd j = _
  congr 1
  refine Finset.sum_nbij' (fun j => (j 0 : Fin B)) (fun b => ix3 b h k) ?_ ?_ ?_ ?_ ?_
  · intro j hj
    obtain ⟨b, h', k', rfl⟩ : ∃ (b : Fin B) (h' : Fin H) (k' : Fin D), j = ix3 b h' k' :=
      ⟨j 0, j 1, j 2, eq_ix3 j⟩
    have hl := (rows3_lands_iff wf idx b h' k' n h k).mp (Finset.mem_filter.mp hj).2
    exact Finset.mem_filter.mpr ⟨Finset.mem_univ _, hl.1⟩
  · intro b hb
    exact Finset.mem_filter.mpr ⟨Finset.mem_univ _,
      (rows3_lands_iff wf idx b h k n h k).mpr ⟨(Finset.mem_filter.mp hb).2, rfl, rfl⟩⟩
  · intro j hj
    obtain ⟨b, h', k', rfl⟩ : ∃ (b : Fin B) (h' : Fin H) (k' : Fin D), j = ix3 b h' k' :=
      ⟨j 0, j 1, j 2, eq_ix3 j⟩
    have hl := (rows3_lands_iff wf idx b h' k' n h k).mp (Finset.mem_filter.mp hj).2
    show ix3 b h k = ix3 b h' k'
    rw [hl.2.1, hl.2.2]
  · intro b _
    rfl
  · intro j hj
    obtain ⟨b, h', k', rfl⟩ : ∃ (b : Fin B) (h' : Fin H) (k' : Fin D), j = ix3 b h' k' :=
      ⟨j 0, j 1, j 2, eq_ix3 j⟩
    have hl := (rows3_lands_iff wf idx b h' k' n h k).mp (Finset.mem_filter.mp hj).2
    show upd (ix3 b h' k') = upd (ix3 b h k)
    rw [hl.2.1, hl.2.2]

end Rows3

end Idealize.ShloMosaic.ScatterAddRows

end
-- ==== Proof.LibScatterAddVec.lean ====
/-
  A scatter-add of numbers into a vector, read at an index.

  vec.at[idx].add(updates) for a vector of N numbers, B integer positions and B update numbers lowers to a
  stablehlo.scatter with an add body whose operand is [N], whose scatter indices are a [B, 1] array and whose updates
  are [B]. Update b is added into the entry whose position is the word idx[b] read as a SIGNED integer; the word is
  neither wrapped nor clamped, and an update whose word names no entry (negative, or N and above) is dropped. So entry
  n of the result is the vector's entry plus the sum of every update b with idx[b] = n as integers — the rank-1
  sibling of the scatter-add of rows into a table, on the same route: an update lands on n exactly when its start (the
  word, on the one axis) plus its window coordinate (0, the axis being inserted) is n.
-/
import Idealize.ShloMosaic.PureOps.Ideal
import Idealize.ShloMosaic.Lib.ValueIdx
import proofs.«117712_j46686294508029_2_alg».proof.Proof.LibScatterAddRows

noncomputable section

open scoped BigOperators

namespace Idealize.ShloMosaic.ScatterAddRows

open Idealize.ShloMosaic Idealize.ShloMosaic.ValueIdx

/-- Operand [N], scatter indices [B, 1], updates [B]: update b goes to the entry idx[b] names. -/
abbrev vecDims (N B : Nat)
    (wf : ScatterDims.WF ⟨1, ![N]⟩ ⟨2, ![B, 1]⟩ ⟨1, ![B]⟩ [] [0] [0] 1) :
    ScatterDims ⟨1, ![N]⟩ ⟨2, ![B, 1]⟩ ⟨1, ![B]⟩ where
  updateWindowDims := []
  insertedWindowDims := [0]
  scatterDimsToOperandDims := [0]
  indexVectorDim := 1
  wf := wf

section Vec
variable {N B w : Nat} (wf : ScatterDims.WF ⟨1, ![N]⟩ ⟨2, ![B, 1]⟩ ⟨1, ![B]⟩ [] [0] [0] 1)

/-- The window of update b starts at the word idx[b] read signed. -/
theorem vec_start0 (idx : IVec ⟨2, ![B, 1]⟩ w) (b : Fin B) :
    (vecDims N B wf).start (ix1 b) idx (⟨0, by decide⟩ : Fin 1) = (idx (ix2 b (0 : Fin 1))).toInt := by
  unfold ScatterDims.start
  rw [dif_pos (show (⟨0, by decide⟩ : Fin 1) ∈ (vecDims N B wf).scatterDimsToOperandDims from
    List.mem_singleton.mpr rfl)]
  have hsi : (vecDims N B wf).siIdx (ix1 b)
      ⟨List.idxOf (⟨0, by decide⟩ : Fin 1) (vecDims N B wf).scatterDimsToOperandDims,
        List.idxOf_lt_length_iff.2 (List.mem_singleton.mpr rfl)⟩ = ix2 b (0 : Fin 1) := by
    funext a; refine Fin.ext ?_
    match a with
    | ⟨0, _⟩ => rfl
    | ⟨1, _⟩ => rfl
  rw [hsi]

/-- Update b lands on entry n exactly when the word idx[b], read signed, is n. -/
theorem vec_lands_iff (idx : IVec ⟨2, ![B, 1]⟩ w) (b : Fin B) (n : Fin N) :
    (vecDims N B wf).resultIdx? (ix1 b) idx = some (ix1 n)
      ↔ (idx (ix2 b (0 : Fin 1))).toInt = (n.val : Int) := by
  rw [resultIdx?_eq_some_iff]
  have hw0 : (vecDims N B wf).window (ix1 b) (⟨0, by decide⟩ : Fin 1) = 0 :=
    window_eq_zero _ _ _ (fun h => ((mem_sKept _ _).mp h) (List.mem_singleton.mpr rfl))
  constructor
  · intro h
    have h0 := h (⟨0, by decide⟩ : Fin 1)
    rw [vec_start0, hw0] at h0
    have h0' : (idx (ix2 b (0 : Fin 1))).toInt + ((0 : Nat) : Int) = (n.val : Int) := h0
    omega
  · intro h0 a
    match a with
    | ⟨0, _⟩ =>
      rw [vec_start0, hw0]
      show _ = (n.val : Int)
      omega

/-- Entry n of the scatter-add: the vector's entry plus the sum, over the updates b whose word idx[b] read signed is
    n, of update b. -/
theorem scatterAdd_vec_apply {φ : FTy} (x : (⟨1, ![N]⟩ : Shape).Idx → EReal) (idx : IVec ⟨2, ![B, 1]⟩ w)
    (upd : (⟨1, ![B]⟩ : Shape).Idx → EReal) (n : Fin N) :
    Host.scatterAdd (F := Ideal) (φ := φ) (vecDims N B wf) x idx upd (ix1 n)
      = x (ix1 n) + ∑ b ∈ Finset.univ.filter (fun b : Fin B => (idx (ix2 b (0 : Fin 1))).toInt = (n.val : Int)),
          upd (ix1 b) := by
  show x (ix1 n) + ∑ j ∈ Finset.univ.filter
      (fun j => (vecDims N B wf).resultIdx? j idx = some (ix1 n)), upd j = _
  congr 1
  refine Finset.sum_nbij' (fun j => (j 0 : Fin B)) (fun b => ix1 b) ?_ ?_ ?_ ?_ ?_
  · intro j hj
    obtain ⟨b, rfl⟩ : ∃ b : Fin B, j = ix1 b := ⟨j 0, eq_ix1 j⟩
    exact Finset.mem_filter.mpr ⟨Finset.mem_univ _, (vec_lands_iff wf idx b n).mp (Finset.mem_filter.mp hj).2⟩
  · intro b hb
    exact Finset.mem_filter.mpr ⟨Finset.mem_univ _, (vec_lands_iff wf idx b n).mpr (Finset.mem_filter.mp hb).2⟩
  · intro j _
    exact (eq_ix1 j).symm
  · intro b _
    rfl
  · intro j _
    exact congrArg upd (eq_ix1 j)

end Vec

end Idealize.ShloMosaic.ScatterAddRows

end
-- ==== Proof.RefValue.lean ====
/-
  The reference program's result as one closed formula of its two argument arrays.

  The reference computes a loss over 262144 x 128 elements, each a probability x and a target t. Every element has a
  bin word, clip(floor(|x - t| * 10), 0, 9). A scatter-add of ones into a vector of ten zeros counts the elements of
  each bin; n is the number of bins with a positive count; a bin's weight is tot / max(count, 1) if its count is
  positive and 0 otherwise; each element's weight is its bin's weight, fetched by a gather, divided by max(n, 1); and
  the result is the sum over the elements of weight times cross entropy, divided by tot.

  The facts that identify each stage with the closed form's parts:
  * The bin word of an element is the same composition of scalar operations in the program and in the closed form.
  * A word below 10 is not negative when read signed, so the "add 10 if negative" normalisation of the positions,
    before the scatter-add and before the gather, is the identity.
  * Entry n of the scatter-add is 0 plus the sum, over the flat positions whose word read signed is n, of 1. A sum over
    a filtered set is the sum of "1 if the condition holds, else 0" over all positions; the 2^25 flat positions are
    262144 blocks of 128, and position r * 128 + l holds the word of element (r, l); and "1 if the word is n, else 0"
    is the comparison bit read as a number, which is how the closed form writes one element's contribution to a count.
    So the scatter-add's result is the vector of the ten counts.
  * n and the weights are the same functions of the vector of counts in the program and in the closed form.
  * The gather reads the weight vector at the start word read signed and clamped into [0, 9]; for a word below 10
    that is the word itself, so the gathered weight of element (r, l) is the weight of its bin.
  * The cross entropy of an element is the same composition of scalar operations on both sides.
  * The final sum over all indices is the double sum over rows and lanes.
-/
import proofs.«117712_j46686294508029_2_alg».proof.Proof.Spec
import proofs.«117712_j46686294508029_2_alg».proof.Proof.RefReadP
import proofs.«117712_j46686294508029_2_alg».proof.Proof.LibScatterAddVec
import proofs.«117712_j46686294508029_2_alg».proof.Proof.LibBlockSum
import Idealize.ShloMosaic.Lib.IdealHost

noncomputable section

open scoped BigOperators

namespace Cert.Ghm.Ref

open Cert.ReferenceIdeal Cert.ReferenceIdeal.Gen Cert.ReferenceIdeal.ReadP Cert.Ghm Idealize.ShloMosaic Idealize.ShloMosaic.ValueIdx

/-- An argument array: 262144 x 128 numbers. -/
abbrev Arr := (⟨S262144x128, .f32⟩ : BufTy).Contents (Elt Ideal)

/-- The clipped bin word of the element at index i. -/
theorem v6_apply (X T : Arr) (i : S262144x128.Idx) :
    val_main_v6 (F := Ideal) X T i = binW (X i) (T i) := by
  rw [val_main_v6_apply, val_main_call0_v4_apply, val_main_call0_v3_apply, val_main_c_0_apply,
    val_main_call0_v2_apply, val_main_call0_v1_apply, val_main_call0_v0_apply, val_main_c_apply,
    val_main_v5_apply, val_main_v4_apply, val_main_v3_apply, val_main_v1_apply, val_main_v0_apply,
    val_main_v2_apply, val_main_cst_apply]
  rfl

/-- A word below 10 read signed is its unsigned value. -/
theorem toInt_of_lt10 (w : BitVec 32) (h : w.toNat < 10) : w.toInt = (w.toNat : Int) := by
  rw [BitVec.toInt_eq_toNat_cond]
  rw [if_pos (by omega)]

/-- A word below 10 is not negative: the comparison "less than 0" gives the bit 0. -/
theorem slt_zero_of_lt10 (w : BitVec 32) (h : w.toNat < 10) : IntOp.cmpi .slt w 0#32 = 0#1 := by
  have h1 : w.slt 0#32 = false := by
    rw [BitVec.slt, toInt_of_lt10 w h]
    simp
  show BitVec.ofBool (w.slt 0#32) = 0#1
  rw [h1]; rfl

/-- The index normalisation "add 10 if negative" leaves a word below 10 as it is. -/
theorem norm_of_lt10 (w z c : BitVec 32) (h : w.toNat < 10) (hz : z = 0#32) :
    Scalar.select (IntOp.cmpi .slt w z) (IntOp.addi w c) w = w := by
  subst hz
  rw [slt_zero_of_lt10 w h, select_zero]

/-- The start word of update b of the scatter-add is the bin word of the element that the reshape puts at flat
    position b. -/
theorem v14_apply (hlt10 : ∀ x t : Ideal .f32, (binW x t).toNat < 10) (X T : Arr) (b : Fin 33554432) :
    val_main_v14 (F := Ideal) X T (ix2 b (0 : Fin 1))
      = binW (X (idx_main_v8 (ix1 b))) (T (idx_main_v8 (ix1 b))) := by
  have hidx : idx_main_v14 (ix2 b (0 : Fin 1)) = ix1 b := by
    funext a; match a with | ⟨0, _⟩ => rfl
  rw [val_main_v14_apply, hidx, val_main_v13_apply, val_main_v10_apply, val_main_v12_apply, val_main_v8_apply,
    v6_apply]
  exact norm_of_lt10 _ _ _ (hlt10 _ _) (by rw [val_main_v9_apply, val_main_c_2_apply])

/-- Flat position r * 128 + l is row r, lane l. -/
theorem idx8_block (r : Fin 262144) (l : Fin 128) (h : r.val * 128 + l.val < 33554432) :
    idx_main_v8 (ix1 (⟨r.val * 128 + l.val, h⟩ : Fin 33554432)) = ix2 r l := by
  funext a
  match a with
  | ⟨0, _⟩ => refine Fin.ext ?_; show (r.val * 128 + l.val) / 128 = r.val; have := l.isLt; omega
  | ⟨1, _⟩ => refine Fin.ext ?_; show (r.val * 128 + l.val) % 128 = l.val; have := l.isLt; omega

/-- A sum over the 2^25 flat positions is the sum over the rows of the sum over the lanes. -/
theorem sum_flat {M : Type*} [AddCommMonoid M] (f : Fin 33554432 → M) :
    ∑ b : Fin 33554432, f b = ∑ r : Fin 262144, ∑ l : Fin 128, f ⟨r.val * 128 + l.val, by omega⟩ :=
  Cert.LibBlockSum.sum_blocks_fin 262144 128 f

/-- What one element adds to bin n's count is 1 if its word read signed is n and 0 otherwise. -/
theorem cntTerm_eq (n : Fin 10) (x t : Ideal .f32) (h : (binW x t).toNat < 10) :
    cntTerm (BitVec.ofNat 32 n.val) x t = if (binW x t).toInt = (n.val : Int) then (1 : EReal) else 0 := by
  unfold cntTerm
  generalize binW x t = w at h ⊢
  have hn := n.isLt
  have hnn : (BitVec.ofNat 32 n.val).toNat = n.val := by
    rw [BitVec.toNat_ofNat]; exact Nat.mod_eq_of_lt (by omega)
  by_cases hw : w = BitVec.ofNat 32 n.val
  · have h1 : IntOp.cmpi .eq w (BitVec.ofNat 32 n.val) = 1#1 := by
      subst hw; show BitVec.ofBool (_ == _) = 1#1; rw [beq_self_eq_true]; rfl
    have h2 : w.toInt = (n.val : Int) := by
      rw [toInt_of_lt10 w h, hw, hnn]
    rw [h1, if_pos h2]
    have h3 : ((1#1 : BitVec 1).setWidth 32).toInt = 1 := by decide
    show ((((1#1 : BitVec 1).setWidth 32).toInt : ℝ) : EReal) = 1
    rw [h3]; norm_num
  · have h1 : IntOp.cmpi .eq w (BitVec.ofNat 32 n.val) = 0#1 := by
      show BitVec.ofBool (w == BitVec.ofNat 32 n.val) = 0#1
      rw [beq_eq_false_iff_ne.mpr hw]; rfl
    have h2 : ¬ w.toInt = (n.val : Int) := by
      intro h2
      rw [toInt_of_lt10 w h] at h2
      exact hw (BitVec.eq_of_toNat_eq (by rw [hnn]; exact_mod_cast h2))
    rw [h1, if_neg h2]
    have h3 : ((0#1 : BitVec 1).setWidth 32).toInt = 0 := by decide
    show ((((0#1 : BitVec 1).setWidth 32).toInt : ℝ) : EReal) = 0
    rw [h3]; norm_num

/-- The scatter-add's record is the vector form: operand [10], positions [2^25, 1], updates [2^25]. -/
theorem scatter_rec : scatter_S10_S33554432x1_S33554432_n_0_0_1
    = ScatterAddRows.vecDims 10 33554432 scatter_S10_S33554432x1_S33554432_n_0_0_1_wf := rfl

/-- Entry n of the scatter-add of ones is the count of bin n. -/
theorem v16_apply (hlt10 : ∀ x t : Ideal .f32, (binW x t).toNat < 10) (X T : Arr) (n : Fin 10) :
    val_main_v16 (F := Ideal) X T (ix1 n) = cnt X T n := by
  unfold val_main_v16
  rw [scatter_rec, ScatterAddRows.scatterAdd_vec_apply]
  have hupd : ∀ b : Fin 33554432, val_main_v15 (F := Ideal) (ix1 b) = (1 : EReal) := by
    intro b; rw [val_main_v15_apply, val_main_cst_4_apply]; exact Ideal.ofBits_one_f32
  have hx : val_main_v7 (F := Ideal) (ix1 n) = (0 : EReal) := by
    rw [val_main_v7_apply, val_main_cst_1_apply]; exact Ideal.ofBits_zero_f32
  rw [hx, zero_add]
  simp only [hupd, v14_apply hlt10 X T]
  rw [Finset.sum_filter, sum_flat]
  unfold cnt
  refine Finset.sum_congr rfl fun r _ => Finset.sum_congr rfl fun l _ => ?_
  rw [idx8_block, cntTerm_eq n _ _ (hlt10 _ _)]

/-- The scatter-add of ones is the vector of the ten counts. -/
theorem v16_eq (hlt10 : ∀ x t : Ideal .f32, (binW x t).toNat < 10) (X T : Arr) :
    val_main_v16 (F := Ideal) X T = cntVec X T := by
  funext j
  obtain ⟨n, rfl⟩ : ∃ n : Fin 10, j = ix1 n := ⟨j 0, eq_ix1 j⟩
  exact v16_apply hlt10 X T n

/-- n as a number: the host's count of the non-empty bins, computed from the vector of counts. -/
theorem v21_apply (hlt10 : ∀ x t : Ideal .f32, (binW x t).toNat < 10) (X T : Arr) :
    val_main_v21 (F := Ideal) X T ix0 = nOf (cntVec X T) bcast_S_S10 reducesTo_S10_S_d0 h_S_ natLt_1_32 := by
  unfold val_main_v21 val_main_v20 val_main_v19 val_main_v18 val_main_v17 val_main_cst_5 val_main_c_6 nOf
  rw [v16_eq hlt10]

/-- max(n, 1). -/
theorem v36_apply (hlt10 : ∀ x t : Ideal .f32, (binW x t).toNat < 10) (X T : Arr) :
    val_main_v36 (F := Ideal) X T ix0 = nMax (cntVec X T) bcast_S_S10 reducesTo_S10_S_d0 h_S_ natLt_1_32 := by
  rw [val_main_v36_apply, val_main_cst_13_apply, v21_apply hlt10]
  rfl

/-- The weight of bin n, from its count. -/
theorem v28_apply (hlt10 : ∀ x t : Ideal .f32, (binW x t).toNat < 10) (X T : Arr) (n : Fin 10) :
    val_main_v28 (F := Ideal) X T (ix1 n) = wS (cnt X T n) := by
  rw [val_main_v28_apply, val_main_v23_apply, val_main_v27_apply, val_main_v25_apply, val_main_v26_apply,
    val_main_v24_apply, val_main_v22_apply, val_main_call1_v1_apply, val_main_call1_v0_apply,
    val_main_cst_7_apply, val_main_cst_8_apply, val_main_cst_9_apply, val_main_cst_10_apply, v16_apply hlt10]
  rfl

/-- The gather's record is the "take" form: operand [10], start indices [262144, 128, 1], result [262144, 128]. -/
theorem gather_rec : gather_S10_S262144x128x1_S262144x128_n_0_n_n_0_2_1
    = takeDims 10 262144 128 gather_S10_S262144x128x1_S262144x128_n_0_n_n_0_2_1_wf := rfl

/-- The start word of the gather at (r, l) is the bin word of element (r, l). -/
theorem v34_apply (hlt10 : ∀ x t : Ideal .f32, (binW x t).toNat < 10) (X T : Arr) (r : Fin 262144) (l : Fin 128) :
    val_main_v34 (F := Ideal) X T (takeIdx (ix2 r l)) = binW (X (ix2 r l)) (T (ix2 r l)) := by
  have hidx : idx_main_v34 (takeIdx (ix2 r l)) = ix2 r l := by
    funext a; match a with | ⟨0, _⟩ => rfl | ⟨1, _⟩ => rfl
  rw [val_main_v34_apply, hidx, val_main_v33_apply, val_main_v30_apply, val_main_v32_apply, v6_apply]
  exact norm_of_lt10 _ _ _ (hlt10 _ _) (by rw [val_main_v29_apply, val_main_c_11_apply])

/-- The weight vector read at a word below 10, read signed and clamped into [0, 9], is the weight of that bin. -/
theorem v28_clamp (hlt10 : ∀ x t : Ideal .f32, (binW x t).toNat < 10) (X T : Arr) (w : BitVec 32)
    (hw : w.toNat < 10) (p : min w.toInt.toNat (10 - 1) < 10) :
    val_main_v28 (F := Ideal) X T (ix1 (⟨min w.toInt.toNat (10 - 1), p⟩ : Fin 10)) = wS (cnt X T ⟨w.toNat, hw⟩) := by
  have hfin : (⟨min w.toInt.toNat (10 - 1), p⟩ : Fin 10) = ⟨w.toNat, hw⟩ := by
    refine Fin.ext ?_
    show min w.toInt.toNat (10 - 1) = w.toNat
    rw [toInt_of_lt10 w hw, Int.toNat_natCast]; omega
  rw [hfin]; exact v28_apply hlt10 X T _

/-- A gather from the weight vector whose start word at y is a word below 10 reads the weight of that bin. -/
theorem gather_clamp (hlt10 : ∀ x t : Ideal .f32, (binW x t).toNat < 10) (X T : Arr)
    (idx : IVec (⟨3, ![262144, 128, 1]⟩ : Shape) 32) (y : (⟨2, ![262144, 128]⟩ : Shape).Idx) (w : BitVec 32)
    (h : idx (takeIdx y) = w) (hw : w.toNat < 10) :
    Host.gather (takeDims 10 262144 128 gather_S10_S262144x128x1_S262144x128_n_0_n_n_0_2_1_wf)
      (val_main_v28 (F := Ideal) X T) idx y = wS (cnt X T ⟨w.toNat, hw⟩) := by
  rw [gather_take_apply (by decide : 0 < 10)]
  subst h
  exact v28_clamp hlt10 X T _ hw _

/-- The gathered weight at (r, l) is the weight of the bin of element (r, l). -/
theorem v35_apply (hlt10 : ∀ x t : Ideal .f32, (binW x t).toNat < 10) (X T : Arr) (r : Fin 262144) (l : Fin 128) :
    val_main_v35 (F := Ideal) X T (ix2 r l)
      = wS (cnt X T (binIdx (X (ix2 r l)) (T (ix2 r l)) (hlt10 _ _))) := by
  unfold val_main_v35
  rw [gather_rec]
  exact gather_clamp hlt10 X T _ _ _ (v34_apply hlt10 X T r l) (hlt10 _ _)

/-- The cross entropy of the element at index i. -/
theorem v47_apply (X T : Arr) (i : S262144x128.Idx) :
    val_main_v47 (F := Ideal) X T i = bce (X i) (T i) := by
  rw [val_main_v47_apply, val_main_v46_apply, val_main_v40_apply, val_main_v39_apply, val_main_v45_apply,
    val_main_v42_apply, val_main_v41_apply, val_main_cst_14_apply, val_main_v44_apply, val_main_v43_apply]
  rfl

/-- The summand at (r, l): (the weight of the element's bin divided by max(n, 1)) times its cross entropy. -/
theorem v48_apply (hlt10 : ∀ x t : Ideal .f32, (binW x t).toNat < 10) (X T : Arr) (r : Fin 262144) (l : Fin 128) :
    val_main_v48 (F := Ideal) X T (ix2 r l)
      = FloatOps.mulf (FloatOps.hostDivf (wS (cnt X T (binIdx (X (ix2 r l)) (T (ix2 r l)) (hlt10 _ _))))
          (nMax (cntVec X T) bcast_S_S10 reducesTo_S10_S_d0 h_S_ natLt_1_32)) (bce (X (ix2 r l)) (T (ix2 r l))) := by
  rw [val_main_v48_apply, val_main_v38_apply, val_main_v37_apply, v35_apply hlt10, v47_apply,
    show idx_main_v37 (ix2 r l) = ix0 from rfl, v36_apply hlt10]

/-- The reference's result is the loss element by element. -/
theorem ref_value (hlt10 : ∀ x t : Ideal .f32, (binW x t).toNat < 10)
    (X T : (⟨S262144x128, .f32⟩ : BufTy).Contents (Elt Ideal)) :
    val_main_v50 (F := Ideal) X T
      = fun _ => lossByElement bcast_S_S10 reducesTo_S10_S_d0 h_S_ natLt_1_32 hlt10 X T := by
  funext i
  rw [val_main_v50_apply, val_main_v49_apply, val_main_cst_15_apply, val_main_cst_16_apply, sum_idx2]
  unfold lossByElement
  simp only [v48_apply hlt10]
  rfl

end Cert.Ghm.Ref

end
-- ==== Proof.lean ====
/-
  The kernel against its reference: a gradient-harmonised cross-entropy loss over two [262144, 128] arrays, inputs x
  and targets t, both finite.

  What is computed. Each element has a bin word clip(floor(|x - t| * 10), 0, 9) and a cross entropy
  -(t * log x + (1 - t) * log(1 + (-x))). Bin b has a count c_b (the number of elements with word b) and a sum S_b (of
  their cross entropies); its weight is w_b = tot / max(c_b, 1) if c_b > 0 and 0 otherwise, with tot = 2^25 the number
  of elements, and n is the number of bins with c_b > 0.

  The kernel streams the arrays once. Grid point p of 64 reads rows 4096 p .. 4096 p + 4095 and adds, into a
  [20, 128] block shared by the 32 points of its half, a lane-wise sum over those rows: rows 0..9 of the block receive
  the indicators of the ten bins, rows 10..19 the cross entropies selected by bin; the first point of a half starts
  from zeros. The host then adds the two halves' blocks, adds the lanes of each row, which gives the c_b and the S_b,
  and returns (0 + sum over b of w_b * S_b) / (max(n, 1) * tot).
  The reference counts by a scatter-add of ones into ten zeros, gathers each element's weight w_{bin(e)}, and returns
  (0 + sum over the elements e of (w_{bin(e)} / max(n, 1)) * bce_e) / tot.

  Why they agree on the extended reals. Sums of extended reals may be regrouped freely (addition is commutative and
  associative there with no side condition), so the kernel's counts and per-bin sums are sums over all elements, and so
  are the reference's. The two final forms differ by grouping the elements by bin and moving the factors w_b, 1 / max(n, 1)
  and 1 / tot across sums; on the extended reals a factor may cross a sum when it is finite and non-negative, and these
  are: w_b is 0 or tot / max(c_b, 1) with max(c_b, 1) >= 1, max(n, 1) is a real >= 1, and tot = 2^25. The claim's
  precondition (every input finite) is not used: each conjunct below discards that hypothesis.

  Modules: Spec (the two closed forms), BinLaw (they are equal), KerRow / KerPieces / KerPoint / KerArray / KerSums /
  KerTail (the kernel's run ends at the first form), RefRunP / RefReadP / RefValue (the reference's run ends at the
  second). The frames of the two kernel programs are the generated ones; the reference's frame is its run with the
  result dropped; the idealization rewrote nothing.
-/
import proofs.«117712_j46686294508029_2_alg».proof.Defs
import proofs.«117712_j46686294508029_2_alg».proof.Proof.Gen.Kernel
import proofs.«117712_j46686294508029_2_alg».proof.Proof.Gen.Kernel.Frame
import proofs.«117712_j46686294508029_2_alg».proof.Proof.Gen.KernelIdeal
import proofs.«117712_j46686294508029_2_alg».proof.Proof.Gen.KernelIdeal.Frame
import proofs.«117712_j46686294508029_2_alg».proof.Proof.Gen.ReferenceIdeal
import proofs.«117712_j46686294508029_2_alg».proof.Proof.Gen.Pre_finite_inputs
import proofs.«117712_j46686294508029_2_alg».proof.Proof.BinLaw
import proofs.«117712_j46686294508029_2_alg».proof.Proof.KerTail
import proofs.«117712_j46686294508029_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the loss: the kernel at the form grouped by bin, the reference at the form summed
    element by element, of arguments that agree; the two forms are equal. -/
theorem algebraic : Cert.algebraic_KernelIdeal_ReferenceIdeal := by
  intro m ρ m' ρ' _ hagree
  refine ⟨_, Cert.Ghm.Ker.kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v50_eq, Cert.Ghm.Ref.ref_value Cert.Ghm.binW_lt, (hagree c).1, (hagree c).2]
  funext i
  exact (Cert.Ghm.lossByBin_eq_lossByElement _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
